-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S_ : Shape := ⟨0, ![]⟩
abbrev S8x2048 : Shape := ⟨2, ![8, 2048]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8x2048x2048_S8x2048_d1 : S8x2048x2048.ReducesTo [1] S8x2048
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg1 : FVec F S8x2048x2048 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_cst_6 : FVec F S_ .f32 := constant S_ .f32 0x00000000#32
  let main_v19 : FVec F S8x2048 .f32 := (fun x v => Host.reduceAdd x v reducesTo_S8x2048x2048_S8x2048_d1 h_S_) main_arg1 main_cst_6
  let main_cst_7 : FVec F S_ .f32 := constant S_ .f32 0x00000000#32
  let main_v20 : FVec F S8x2048 .f32 := broadcastInDim S8x2048 ![] bcast_S_S8x2048 main_cst_7
  let main_v21 : IVec S8x2048 1 := cmpf .ogt main_v19 main_v20
  let main_c_8 : IVec S_ 1 := constantI S_ 1 1#1
  let main_v22 : IVec S_ 1 := (fun x v => Host.reduce IntOp.andi x v reducesTo_S8x2048_S_d0_1 h_S_) main_v21 main_c_8
  let main_v23 : IVec S_ 1 := andi main_v18 main_v22
  main_v23

def fn {F : FTy → Type} [FloatOps F] (main_arg0 : FVec F S8x2048x256 .f32) (main_arg1 : FVec F S8x2048x2048 .f32) (main_arg2 : FVec F S256x256 .f32) (main_arg3 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S8x2048x1 : Shape := ⟨3, ![8, 2048, 1]⟩
abbrev S1x1024x2048 : Shape := ⟨3, ![1, 1024, 2048]⟩
abbrev S1x2048x1 : Shape := ⟨3, ![1, 2048, 1]⟩
abbrev S2048x1 : Shape := ⟨2, ![2048, 1]⟩
abbrev S1024x2048 : Shape := ⟨2, ![1024, 2048]⟩
abbrev S2048 : Shape := ⟨1, ![2048]⟩
abbrev S1x2048x256 : Shape := ⟨3, ![1, 2048, 256]⟩
abbrev S2048x256 : Shape := ⟨2, ![2048, 256]⟩
abbrev S1x1024x1 : Shape := ⟨3, ![1, 1024, 1]⟩
abbrev S1x1024x256 : Shape := ⟨3, ![1, 1024, 256]⟩
abbrev S1024x256 : Shape := ⟨2, ![1024, 256]⟩
abbrev S1024x1 : Shape := ⟨2, ![1024, 1]⟩
abbrev S1x256 : Shape := ⟨2, ![1, 256]⟩

abbrev nBuf : Space → Nat
  | .hbm => 7
  | .vmem => 21
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S8x2048x1, .f32⟩
  | .hbm, ⟨5, _⟩ => ⟨S8x2048x256, .f32⟩
  | .hbm, ⟨6, _⟩ => ⟨S8x2048x256, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x1, .f32⟩
  | .local _ .vmem, ⟨3, _⟩ => ⟨S1x2048x1, .f32⟩
  | .local _ .vmem, ⟨4, _⟩ => ⟨S2048x1, .f32⟩
  | .local _ .vmem, ⟨5, _⟩ => ⟨S1x2048x256, .f32⟩
  | .local _ .vmem, ⟨6, _⟩ => ⟨S1x2048x256, .f32⟩
  | .local _ .vmem, ⟨7, _⟩ => ⟨S256x256, .f32⟩
  | .local _ .vmem, ⟨8, _⟩ => ⟨S1x2048x1, .f32⟩
  | .local _ .vmem, ⟨9, _⟩ => ⟨S1x2048x1, .f32⟩
  | .local _ .vmem, ⟨10, _⟩ => ⟨S1x2048x256, .f32⟩
  | .local _ .vmem, ⟨11, _⟩ => ⟨S1x2048x256, .f32⟩
  | .local _ .vmem, ⟨12, _⟩ => ⟨S1x1024x2048, .f32⟩
  | .local _ .vmem, ⟨13, _⟩ => ⟨S1x1024x2048, .f32⟩
  | .local _ .vmem, ⟨14, _⟩ => ⟨S1x2048x256, .f32⟩
  | .local _ .vmem, ⟨15, _⟩ => ⟨S1x2048x256, .f32⟩
  | .local _ .vmem, ⟨16, _⟩ => ⟨S1x1024x1, .f32⟩
  | .local _ .vmem, ⟨17, _⟩ => ⟨S1x1024x1, .f32⟩
  | .local _ .vmem, ⟨18, _⟩ => ⟨S256, .f32⟩
  | .local _ .vmem, ⟨19, _⟩ => ⟨S1x1024x256, .f32⟩
  | .local _ .vmem, ⟨20, _⟩ => ⟨S1x1024x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x1024x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S2048 : S1024x2048.Reduces [0] S2048
  shapeCasts_S2048_S2048x1 : S2048.ShapeCasts S2048x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  broadcasts_S2048x1_S2048x256 : S2048x1.Broadcasts S2048x256
  shapeCasts_S2048x256_S1x2048x256 : S2048x256.ShapeCasts S1x2048x256
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x256 : S1024x1.Broadcasts S1024x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S2048x256_S256x256_S2048x256_1_0_0_1_n_n_wf : DotDims.WF S2048x256 S256x256 S2048x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S8x2048x1.size a
  hwx0_1 : ∀ i : grid0.Coords, EltTy.bits .f32 = 32 ∨ (Rect.block (s := S8x2048x1) S1x2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S8x2048x256.size a
  hwx1_0 : ∀ i : grid1.Coords, EltTy.bits .f32 = 32 ∨ (Rect.block (s := S8x2048x256) S1x2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1.size a ≤ S8x2048x1.size a
  hwx1_2 : ∀ i : grid1.Coords, EltTy.bits .f32 = 32 ∨ (Rect.block (s := S8x2048x1) S1x2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x256.size a ≤ S8x2048x256.size a
  hwx1_3 : ∀ i : grid1.Coords, EltTy.bits .f32 = 32 ∨ (Rect.block (s := S8x2048x256) S1x2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x2048.size a ≤ S8x2048x2048.size a
  hwx2_0 : ∀ i : grid2.Coords, EltTy.bits .f32 = 32 ∨ (Rect.block (s := S8x2048x2048) S1x1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x256.size a ≤ S8x2048x256.size a
  hwx2_1 : ∀ i : grid2.Coords, EltTy.bits .f32 = 32 ∨ (Rect.block (s := S8x2048x256) S1x2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x1.size a ≤ S8x2048x1.size a
  hwx2_2 : ∀ i : grid2.Coords, EltTy.bits .f32 = 32 ∨ (Rect.block (s := S8x2048x1) S1x1024x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x256.size a ≤ S8x2048x256.size a
  hwx2_4 : ∀ i : grid2.Coords, EltTy.bits .f32 = 32 ∨ (Rect.block (s := S8x2048x256) S1x1024x256.size (cc2_transform_4 i) (hinb2_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S1x1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1x1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x1024x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S1x1x256 : Shape := ⟨3, ![1, 1, 256]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048x1, .f32⟩
  | .hbm, ⟨10, _⟩ => ⟨S8x2048x2048, .f32⟩
  | .hbm, ⟨11, _⟩ => ⟨S8x2048x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x2048x256, .f32⟩
  | .hbm, ⟨16, _⟩ => ⟨S8x2048x256, .f32⟩
  | .hbm, ⟨17, _⟩ => ⟨S1x1x256, .f32⟩
  | .hbm, ⟨18, _⟩ => ⟨S8x2048x256, .f32⟩
  | .hbm, ⟨19, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  dot_S8x2048x256_S256x256_S8x2048x256_2_0_01_1_n_n_wf : DotDims.WF S8x2048x256 S256x256 S8x2048x256 [2] [0] [0, 1] [1] [] []
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.K.R0Defs.lean ====
/-
  Region 0 forms, for each batch, the column sums of the adjacency in a scratch column carried across the two
  row tiles of the batch, and at the second tile stores their reciprocal square roots. This module fixes the
  vocabulary the two runs of its body share: which of the body's two branches a grid point takes (the first
  tile of a batch resets the scratch; the second stores the result), where the result window is idle, and the
  memrefs the body is called with.
-/
import proofs.«171595_j82643760710010_1_alg».proof.Proof.Gen.Kernel.Launch
import proofs.«171595_j82643760710010_1_alg».proof.Proof.Gen.Kernel.Skeleton
import proofs.«171595_j82643760710010_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile is in its staging buffer at every point: it is fetched at every point and the body only reads it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branches -/

/-- "This is the first row tile of its batch": the condition under which the body resets the scratch. -/
abbrev isFirst (i : grid0.Coords) : Prop := (Scalar.cmpi .ne (Scalar.extui (Scalar.cmpi .eq (BitVec.ofNat 32 (i 1).val) 0#32)) 0#32) = 1#1
/-- It holds at the even points. -/
theorem isFirst_iff : ∀ t : Fin cfg0.N, isFirst (grid0.coords t) ↔ t.val % 2 = 0 :=
  (by decide +kernel : ∀ t : Fin grid0.N, isFirst (grid0.coords t) ↔ t.val % 2 = 0)

/-- "This is the last row tile of its batch": the condition under which the body stores the result. -/
abbrev isLast (i : grid0.Coords) : Prop := k0_cond2 i = 1#1
/-- It holds at the odd points. -/
theorem isLast_iff : ∀ t : Fin cfg0.N, isLast (grid0.coords t) ↔ t.val % 2 = 1 :=
  (by decide +kernel : ∀ t : Fin grid0.N, isLast (grid0.coords t) ↔ t.val % 2 = 1)

/-! ## Where the windows are idle -/

theorem live0_0 : ∀ t : Fin cfg0.N, cfg0.idle 0 (grid0.coords t) = false := by decide +kernel
/-- At a first tile nothing is stored into the result window, -/
theorem idle0_1_first : ∀ t : Fin cfg0.N, isFirst (grid0.coords t) → ¬isLast (grid0.coords t) → cfg0.idle 1 (grid0.coords t) = true := by decide +kernel
/-- and its block is not written back there. -/
theorem noFlush0_1_first : ∀ t : Fin cfg0.N, isFirst (grid0.coords t) → ¬isLast (grid0.coords t) → (cfg0.win 1).flush t = false := by decide +kernel
/-- At a last tile the result window is stored. -/
theorem live0_1_last : ∀ t : Fin cfg0.N, ¬isFirst (grid0.coords t) → isLast (grid0.coords t) → cfg0.idle 1 (grid0.coords t) = false := by decide +kernel

/-! ## The memrefs the body is called with -/

abbrev VO0_1 : View sig .tc .vmem S1x2048x1 .f32 := (Memref.whole cc0_stg1_0 : Memref sig .tc .vmem S1x2048x1 .f32).view
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x1 .f32 := win0_1.stage (cfg0.slots t 1)
abbrev hs0_1 (t : Fin cfg0.N) : (ms0_1 t).IsWhole := hstage0_1 ((cfg0.slots t 1).cast nbuf0_1)
/-- The scratch column. -/
abbrev scM0 : Memref sig .tc .vmem S2048x1 .f32 := Memref.whole cc0_scratch0
abbrev VS0 : View sig .tc .vmem S2048x1 .f32 := scM0.view

/-- The core's other scoped buffers (the later regions' staging buffers), each at some contents: they ride along untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The region's resting invariant: the scratch at some contents, the other scoped buffers, the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

end Cert.Kernel.R0

end
-- ==== Proof.K.R0RunA.lean ====
/-
  The body of region 0 at the first row tile of a batch: it resets the scratch column to zero, adds the tile's
  column sums to it, and stores nothing into the result window. Whatever the scratch held before is irrelevant;
  what it holds afterwards is recorded as the list of stores the run makes into it.
-/
import proofs.«171595_j82643760710010_1_alg».proof.Proof.K.R0Defs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the adjacency tile at `x0`, the result window at contents `xi1` it never touches, the scratch
    at anything — the body runs to its continuation with the tile and the result window as they were and the
    scratch overwritten by the stores `LS0` (found by running the body). -/
noncomputable def runFirst (c : Dev nD) (i : grid0.Coords) (arg2 : Memref sig .tc .vmem S1x1024x2048 .f32) (harg2 : arg2.IsWhole) (arg3 : Memref sig .tc .vmem S1x2048x1 .f32) (harg3 : arg3.IsWhole) (arg4 : Memref sig .tc .vmem S2048x1 .f32) (harg4 : arg4.IsWhole) (hc0 : isFirst i) (hc1 : ¬isLast i)
    (x0 : Vec F S1x1024x2048 .f32) :
    { LS0 : List (View.Piece (Elt F) S2048x1 .f32) //
      ∀ (xi1 : Vec F S1x2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__d_kernel i arg2 harg2 arg3 harg3 arg4 harg4) K } := by
  refine ⟨?_, fun xi1 E K => ?run⟩
  case run =>
    simp only [cc0__d_kernel_eq_skeleton]; unfold cc0__d_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.R0

end
-- ==== Proof.K.R0RunB.lean ====
/-
  The body of region 0 at the last row tile of a batch: it adds the tile's column sums to the scratch column the
  first tile left, and stores the reciprocal square roots of the completed sums into the result window.
-/
import proofs.«171595_j82643760710010_1_alg».proof.Proof.K.R0RunA

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the adjacency tile at `x0`, the result window at anything, the scratch at `xs0` (what the
    first tile left) — the body runs to its continuation with the tile as it was, the result window overwritten by the
    stores `L1` and the scratch by the stores `LS0` (both found by running the body). -/
noncomputable def runLast (c : Dev nD) (i : grid0.Coords) (arg2 : Memref sig .tc .vmem S1x1024x2048 .f32) (harg2 : arg2.IsWhole) (arg3 : Memref sig .tc .vmem S1x2048x1 .f32) (harg3 : arg3.IsWhole) (arg4 : Memref sig .tc .vmem S2048x1 .f32) (harg4 : arg4.IsWhole) (hc0 : ¬isFirst i) (hc1 : isLast i)
    (x0 : Vec F S1x1024x2048 .f32) (xs0 : Vec F S2048x1 .f32) :
    Σ' (L1 : List (View.Piece (Elt F) S1x2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__d_kernel i arg2 harg2 arg3 harg3 arg4 harg4) K } := by
  refine ⟨?_, ?_, fun E K => ?run⟩
  case run =>
    simp only [cc0__d_kernel_eq_skeleton]; unfold cc0__d_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.R0

end
-- ==== Proof.K.Region0.lean ====
/-
  Region 0's proof data and body obligation. Along the grid the scratch column holds, after the first row tile of
  a batch, that tile's column sums, and after the second the whole columns' sums; the result window is stored
  only at the second tile, with the reciprocal square roots. What each point leaves is defined by recursion on the
  point (a second tile starts from what the first left), the region's invariant carries the scratch at exactly
  that, and the body's run at a point is the run of the branch the point's parity selects.
-/
import proofs.«171595_j82643760710010_1_alg».proof.Proof.K.R0RunB

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch a point takes, from its parity -/

theorem first_of_even (t : Fin cfg0.N) (h : t.val % 2 = 0) : isFirst (grid0.coords t) := (isFirst_iff t).mpr h
theorem notLast_of_even (t : Fin cfg0.N) (h : t.val % 2 = 0) : ¬isLast (grid0.coords t) :=
  fun hl => by have := (isLast_iff t).mp hl; omega
theorem notFirst_of_odd (t : Fin cfg0.N) (h : ¬t.val % 2 = 0) : ¬isFirst (grid0.coords t) :=
  fun hf => h ((isFirst_iff t).mp hf)
theorem last_of_odd (t : Fin cfg0.N) (h : ¬t.val % 2 = 0) : isLast (grid0.coords t) :=
  (isLast_iff t).mpr (by omega)

/-! ## The found stores cover their buffers -/

theorem scoverFirst (c : Dev nD) (i : grid0.Coords) (arg2 : Memref sig .tc .vmem S1x1024x2048 .f32) (harg2 : arg2.IsWhole) (arg3 : Memref sig .tc .vmem S1x2048x1 .f32) (harg3 : arg3.IsWhole) (arg4 : Memref sig .tc .vmem S2048x1 .f32) (harg4 : arg4.IsWhole) (hc0 : isFirst i) (hc1 : ¬isLast i)
    (x0 : Vec F S1x1024x2048 .f32) (y : S2048x1.Idx) :
    ∃ pc ∈ (runFirst c i arg2 harg2 arg3 harg3 arg4 harg4 hc0 hc1 x0).1, y ∈ pc.1.set :=
  View.cover_of_tiledL (runFirst c i arg2 harg2 arg3 harg3 arg4 harg4 hc0 hc1 x0).1 S2048x1.size (by sl_kernel_rfl) y

theorem scoverLast (c : Dev nD) (i : grid0.Coords) (arg2 : Memref sig .tc .vmem S1x1024x2048 .f32) (harg2 : arg2.IsWhole) (arg3 : Memref sig .tc .vmem S1x2048x1 .f32) (harg3 : arg3.IsWhole) (arg4 : Memref sig .tc .vmem S2048x1 .f32) (harg4 : arg4.IsWhole) (hc0 : ¬isFirst i) (hc1 : isLast i)
    (x0 : Vec F S1x1024x2048 .f32) (xs0 : Vec F S2048x1 .f32) (y : S2048x1.Idx) :
    ∃ pc ∈ (runLast c i arg2 harg2 arg3 harg3 arg4 harg4 hc0 hc1 x0 xs0).2.1, y ∈ pc.1.set :=
  View.cover_of_tiledL (runLast c i arg2 harg2 arg3 harg3 arg4 harg4 hc0 hc1 x0 xs0).2.1 S2048x1.size (by sl_kernel_rfl) y

theorem coverLast (c : Dev nD) (i : grid0.Coords) (arg2 : Memref sig .tc .vmem S1x1024x2048 .f32) (harg2 : arg2.IsWhole) (arg3 : Memref sig .tc .vmem S1x2048x1 .f32) (harg3 : arg3.IsWhole) (arg4 : Memref sig .tc .vmem S2048x1 .f32) (harg4 : arg4.IsWhole) (hc0 : ¬isFirst i) (hc1 : isLast i)
    (x0 : Vec F S1x1024x2048 .f32) (xs0 : Vec F S2048x1 .f32) (y : S1x2048x1.Idx) :
    ∃ pc ∈ (runLast c i arg2 harg2 arg3 harg3 arg4 harg4 hc0 hc1 x0 xs0).1, y ∈ pc.1.set :=
  View.cover_of_tiledL (runLast c i arg2 harg2 arg3 harg3 arg4 harg4 hc0 hc1 x0 xs0).1 S1x2048x1.size (by sl_kernel_rfl) y

section
variable (V : (c : Dev nD) → (b : Ref sig .tc) → Buf (Elt F) ((c : Thread nD τ).loc b))

/-! ## What a point leaves -/

/-- The scratch column after a first tile: the run's stores read back. -/
def accFirstAt (c : Dev nD) (t : Fin cfg0.N) (h : t.val % 2 = 0) : Vec F S2048x1 .f32 :=
  VS0.read (Elt F) (VS0.writes (Elt F) VS0.junk (runFirst c (grid0.coords t) (ms0_0 t) (hs0_0 t) (ms0_1 t) (hs0_1 t) scM0 (Memref.isWhole_whole _) (first_of_even t h) (notLast_of_even t h) (iblk0 V c 0 t)).1)

/-- The scratch column after a last tile, from what the first tile left in it. -/
def accLastAt (c : Dev nD) (t : Fin cfg0.N) (h : ¬t.val % 2 = 0) (xs0 : Vec F S2048x1 .f32) : Vec F S2048x1 .f32 :=
  VS0.read (Elt F) (VS0.writes (Elt F) VS0.junk (runLast c (grid0.coords t) (ms0_0 t) (hs0_0 t) (ms0_1 t) (hs0_1 t) scM0 (Memref.isWhole_whole _) (notFirst_of_odd t h) (last_of_odd t h) (iblk0 V c 0 t) xs0).2.1)

/-- The result window after a last tile. -/
def outLastAt (c : Dev nD) (t : Fin cfg0.N) (h : ¬t.val % 2 = 0) (xs0 : Vec F S2048x1 .f32) : Vec F S1x2048x1 .f32 :=
  VO0_1.read (Elt F) (VO0_1.writes (Elt F) VO0_1.junk (runLast c (grid0.coords t) (ms0_0 t) (hs0_0 t) (ms0_1 t) (hs0_1 t) scM0 (Memref.isWhole_whole _) (notFirst_of_odd t h) (last_of_odd t h) (iblk0 V c 0 t) xs0).1)

/-- A first tile stores nothing into the result window; nothing consults its contents there (it is neither written
    back nor read at the next point), so any value serves as the record. -/
def idleOut : Vec F S1x2048x1 .f32 := VO0_1.read (Elt F) VO0_1.junk

/-- What the result window's staging buffer and the scratch column hold after the body at position `n`. -/
def outsAt0 (c : Dev nD) : (n : ℕ) → n < cfg0.N → Vec F S1x2048x1 .f32 × Vec F S2048x1 .f32
  | 0, hn => (idleOut, accFirstAt V c ⟨0, hn⟩ (Nat.zero_mod _))
  | n + 1, hn =>
    if h0 : (n + 1) % 2 = 0 then
      (idleOut, accFirstAt V c ⟨n + 1, hn⟩ h0)
    else
      (outLastAt V c ⟨n + 1, hn⟩ h0 (outsAt0 c n (Nat.lt_of_succ_lt hn)).2, accLastAt V c ⟨n + 1, hn⟩ h0 (outsAt0 c n (Nat.lt_of_succ_lt hn)).2)

theorem outsAt0_first (c : Dev nD) (t : Fin cfg0.N) (h : t.val % 2 = 0) :
    outsAt0 V c t.val t.isLt = (idleOut, accFirstAt V c t h) := by
  obtain ⟨n, hn⟩ := t
  cases n with
  | zero => exact rfl
  | succ n => exact (dif_pos h).trans rfl

theorem outsAt0_last (c : Dev nD) (t : Fin cfg0.N) (h : ¬t.val % 2 = 0) :
    outsAt0 V c t.val t.isLt = (outLastAt V c t h (outsAt0 V c (t.val - 1) (Nat.lt_of_le_of_lt (Nat.sub_le _ _) t.isLt)).2, accLastAt V c t h (outsAt0 V c (t.val - 1) (Nat.lt_of_le_of_lt (Nat.sub_le _ _) t.isLt)).2) := by
  obtain ⟨n, hn⟩ := t
  cases n with
  | zero => exact (by exfalso; exact h (Nat.zero_mod _))
  | succ n => exact (dif_neg h).trans rfl

/-! ## The region's invariant -/

/-- Before the first point the resting invariant; afterwards the scratch at what the point before left, the other
    scoped buffers, and the generator register. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

/-- Region 0's proof data on core `c`: the arrays as the region finds them; after the body at point `t` the adjacency
    tile's buffer at its block and the result window's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The adjacency tile's memref holds its block; the point's parity says which branch runs.
    At a first tile the invariant hands the scratch over at whatever it holds and takes it back at the tile's column
    sums, the result window untouched; at a last tile it hands the scratch over at what the first tile left and takes
    it back at the completed sums, the result window at their reciprocal square roots. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  by_cases h0 : t.val % 2 = 0
  · rw [show (dat0 V c).leavesExact 0 t = owns (c : Thread nD τ) (ms0_0 t) fullShare ((dat0 V c).after 0 t) from by
      unfold Dat.leavesExact; rw [live0_0 t], after0_0]
    rw [Dat.leavesExact_idle (dat0 V c) 1 t (idle0_1_first t (first_of_even t h0) (notLast_of_even t h0)) (noFlush0_1_first t (first_of_even t h0) (notLast_of_even t h0))]
    rw [outsAt0_first V c t h0]
    unfold accFirstAt; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩⟩
      iapply ((runFirst c (grid0.coords t) _ _ _ _ _ _ (first_of_even t h0) (notLast_of_even t h0) (iblk0 V c 0 t)).2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverFirst c _ _ _ _ _ _ _ _ _ _)
          iexact Hrest
        iexact Hg
      isplitl [Ho]; · iexact Ho
      isplitl [H0]; · iexact H0
      iexists _; iexact H1
    · rw [PhiS_castSucc V c t, PhiS_pos V c _ _ hz]
      iintro ⟨⟨⟨HS0, Hrest⟩, Hg⟩, Ho, ⟨%d0, H0⟩, ⟨%d1, H1⟩⟩
      iapply ((runFirst c (grid0.coords t) _ _ _ _ _ _ (first_of_even t h0) (notLast_of_even t h0) (iblk0 V c 0 t)).2 _ Set.univ _)
      isplitl [H0]; · iexact H0
      isplitl [H1]; · iexact H1
      isplitl [HS0]; · iexists _; iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverFirst c _ _ _ _ _ _ _ _ _ _)
          iexact Hrest
        iexact Hg
      isplitl [Ho]; · iexact Ho
      isplitl [H0]; · iexact H0
      iexists _; iexact H1
  · rw [show (dat0 V c).leavesExact 0 t = owns (c : Thread nD τ) (ms0_0 t) fullShare ((dat0 V c).after 0 t) from by
      unfold Dat.leavesExact; rw [live0_0 t], after0_0]
    rw [show (dat0 V c).leavesExact 1 t = owns (c : Thread nD τ) (ms0_1 t) fullShare ((dat0 V c).after 1 t) from by
      unfold Dat.leavesExact; rw [live0_1_last t (notFirst_of_odd t h0) (last_of_odd t h0)], after0_1]
    rw [outsAt0_last V c t h0]
    unfold outLastAt accLastAt; (try dsimp only)
    have hz : t.val ≠ 0 := fun hz => h0 (by rw [hz])
    rw [PhiS_castSucc V c t, PhiS_pos V c _ _ hz]
    iintro ⟨⟨⟨HS0, Hrest⟩, Hg⟩, Ho, ⟨%d0, H0⟩, ⟨%d1, H1⟩⟩
    iapply ((runLast c (grid0.coords t) _ _ _ _ _ _ (notFirst_of_odd t h0) (last_of_odd t h0) (iblk0 V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scoverLast c _ _ _ _ _ _ _ _ _ _ _)
        iexact Hrest
      iexact Hg
    isplitl [Ho]; · iexact Ho
    isplitl [H0]; · iexact H0
    unfold owns; iexists _; isplitr
    swap; · iexact H1
    ipureintro; exact View.read_writes_of_cover _ _ _ _ _ (coverLast c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the resting one back: what the scratch holds is forgotten. -/
theorem hout0 (c : Dev nD) : (dat0 V c).Φ (Fin.last cfg0.N) ⊢ Pipeline.ΦA spec0 c := by
  have hne : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, Hrest⟩, Hg⟩
  isplitl [HS0 Hrest]
  · isplitl [HS0]
    · iexists _; iexact HS0
    iexact Hrest
  iexact Hg

end

end Cert.Kernel.R0

end
-- ==== Proof.K.Region1.lean ====
/- The second of the kernel program's three pipelined regions (the "support" kernel), at the contents V the
   TensorCore's buffers hold when the region is entered, for any float instance.

   The region has four windows. Windows 0, 1 and 2 are inputs: a [1,2048,256] block of the features, the whole
   [256,256] weight (one block, the same at every point, so fetched at the first point only), and a [1,2048,1] block
   of the scaling column. Window 3 is the output, a [1,2048,256] block. The body loads each input whole, loads the
   output buffer (a value it never uses), and stores one payload over the whole output buffer.

   What is proved: each input's staging buffer holds that window's block at every point, fetched there or not; the
   body leaves the output buffer at the payload of the three blocks, whatever it held; and so the library's body
   obligation holds for the proof data whose arrays are V's. -/
import proofs.«171595_j82643760710010_1_alg».proof.Proof.Gen.Kernel.Launch
import proofs.«171595_j82643760710010_1_alg».proof.Proof.Gen.Kernel.Skeleton
import proofs.«171595_j82643760710010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows is looked at once per coordinate of the long axis
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t: the part of its array, as V holds it, that the window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The features' staging buffer holds the features' block at every point, for any proof data over V's array that
    says the body leaves that block where it found it. The window is an input, never idle, its blocks uncut. -/
theorem in0_holds_block_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's staging buffer holds the weight at every point although it is fetched at the first only: where it
    is not fetched its block index has not moved (it is constant), and the body left the block in place. -/
theorem in1_holds_block_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scaling column's staging buffer holds the column's block at every point. -/
theorem in2_holds_block_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer whole -/

abbrev wholeX : Rect S1x2048x256 := Rect.unit (s := S1x2048x256) ![0, 0, 0] S1x2048x256.size inb_S1x2048x256_S1x2048x256_0_0_0
abbrev wholeW : Rect S256x256 := Rect.unit (s := S256x256) ![0, 0] S256x256.size inb_S256x256_S256x256_0_0
abbrev wholeD : Rect S1x2048x1 := Rect.unit (s := S1x2048x1) ![0, 0, 0] S1x2048x1.size inb_S1x2048x1_S1x2048x1_0_0_0

/-! ## What the body leaves in the output buffer -/

/-- The output buffer after the body, from the three input blocks: its one store, of the payload of the three
    inputs each loaded whole, over the whole buffer. -/
def out1 (x0 : Vec F S1x2048x256 .f32) (x1 : Vec F S256x256 .f32) (x2 : Vec F S1x2048x1 .f32) : Vec F S1x2048x256 .f32 :=
  View.canon [⟨wholeX, k1_pay1 (View.ld x0 wholeX) (View.ld x1 wholeW) (View.ld x2 wholeD)⟩]

/-- The one store covers the buffer: its rectangle is the whole shape. -/
theorem out1_covered (p : Vec F S1x2048x256 .f32) (y : S1x2048x256.Idx) :
    ∃ pc ∈ ([⟨wholeX, p⟩] : List (View.Piece (Elt F) S1x2048x256 .f32)), y ∈ pc.1.set :=
  View.cover_of_tiled [⟨wholeX, p⟩] S1x2048x256.size (by rfl) y

/-! ## The body's triple -/

set_option maxHeartbeats 1000000 in
/-- The kernel on whole staging memrefs, the inputs' reading x0, x1, x2 and the output's holding anything, runs to a
    state where the inputs are as they were and the output's reads out1 of them. The load of the output buffer
    reads whatever it held; no later operation uses the value. -/
theorem kernel1_triple (c : Dev nD) (E : Set ℕ) (i : grid1.Coords)
    (arg1 : Memref sig .tc .vmem S1x2048x256 .f32) (harg1 : arg1.IsWhole)
    (arg2 : Memref sig .tc .vmem S256x256 .f32) (harg2 : arg2.IsWhole)
    (arg3 : Memref sig .tc .vmem S1x2048x1 .f32) (harg3 : arg3.IsWhole)
    (arg4 : Memref sig .tc .vmem S1x2048x256 .f32) (harg4 : arg4.IsWhole)
    (x0 : Vec F S1x2048x256 .f32) (x1 : Vec F S256x256 .f32) (x2 : Vec F S1x2048x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1 x0 x1 x2)) -∗ K ⟨⟩))
      ⊢ wp frame (wpE (defs₀ (F := F)) Variants.none c none) E (cc1__support_kernel i arg1 harg1 arg2 harg2 arg3 harg3 arg4 harg4) K := by
  simp only [cc1__support_kernel_eq_skeleton]; unfold cc1__support_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out1_covered _)

/-! ## The region's proof data -/

/-- The proof data of the region on core c: the arrays as V holds them; after the body at point t each input's
    buffer at its block and the output's at out1 of the three blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

/-- The proof data's arrays are V's. -/
theorem A_eq1 (c : Dev nD) (w : Fin cfg1.W) : (dat1 V c).A w = V c (Pipeline.arrRef spec1 w) := by
  dsimp only [dat1]

/-- What the body leaves, window by window. -/
theorem after1_in0 (c : Dev nD) (t : Fin cfg1.N) : (dat1 V c).after 0 t = iblk1 V c 0 t := by dsimp only [dat1]
theorem after1_in1 (c : Dev nD) (t : Fin cfg1.N) : (dat1 V c).after 1 t = iblk1 V c 1 t := by dsimp only [dat1]
theorem after1_in2 (c : Dev nD) (t : Fin cfg1.N) : (dat1 V c).after 2 t = iblk1 V c 2 t := by dsimp only [dat1]
theorem after1_out (c : Dev nD) (t : Fin cfg1.N) :
    (dat1 V c).after 3 t = out1 (iblk1 V c 0 t) (iblk1 V c 1 t) (iblk1 V c 2 t) := by dsimp only [dat1]

/-- Each input's current staging buffer holds its block at every point. -/
theorem in0_holds_block (c : Dev nD) (t : Fin cfg1.N) (d) : (dat1 V c).before 0 t d = iblk1 V c 0 t :=
  in0_holds_block_of V (dat1 V c) (A_eq1 V c 0) (after1_in0 V c) t d
theorem in1_holds_block (c : Dev nD) (t : Fin cfg1.N) (d) : (dat1 V c).before 1 t d = iblk1 V c 1 t :=
  in1_holds_block_of V (dat1 V c) (A_eq1 V c 1) (after1_in1 V c) t d
theorem in2_holds_block (c : Dev nD) (t : Fin cfg1.N) (d) : (dat1 V c).before 2 t d = iblk1 V c 2 t :=
  in2_holds_block_of V (dat1 V c) (A_eq1 V c 2) (after1_in2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and
    what the core owes pass through unread. -/
theorem body1_triple (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [in0_holds_block, in1_holds_block, in2_holds_block]
  rw [show (dat1 V c).Φ t.succ = (dat1 V c).Φ t.castSucc from rfl,
    show (dat1 V c).owesAt () t.succ = (dat1 V c).owesAt () t.castSucc from rfl,
    after1_in0, after1_in1, after1_in2, after1_out]
  iintro ⟨HΦ, Ho, ⟨%d0, H0⟩, ⟨%d1, H1⟩, ⟨%d2, H2⟩, ⟨%d3, H3⟩⟩
  iapply (kernel1_triple c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact body1_triple V c t

end Cert.Kernel.R1

end
-- ==== Proof.K.Region2.lean ====
/- The third of the kernel program's three pipelined regions (the "main" kernel), at the contents V the
   TensorCore's buffers hold when the region is entered, for any float instance.

   The region runs over a grid of 8 by 2 points and has five windows. Windows 0 to 3 are inputs: a [1,1024,2048]
   block of the adjacency (moves at every point); a [1,2048,256] block of the support (its index reads the first
   grid axis only, so it moves at every second point); a [1,1024,1] block of the scaling column (moves at every
   point); the whole [256] bias (one block, fetched at the first point only). Window 4 is the output, a
   [1,1024,256] block. The body loads each input whole, loads the output buffer (a value it never uses), and
   stores one payload over the whole output buffer.

   What is proved: each input's staging buffer holds that window's block at every point, fetched there or not; the
   body leaves the output buffer at the payload of the four blocks, whatever it held; and so the library's body
   obligation holds for the proof data whose arrays are V's. -/
import proofs.«171595_j82643760710010_1_alg».proof.Proof.Gen.Kernel.Launch
import proofs.«171595_j82643760710010_1_alg».proof.Proof.Gen.Kernel.Skeleton
import proofs.«171595_j82643760710010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 rows is looked at once per coordinate of the long axis
set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t: the part of its array, as V holds it, that the window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency's staging buffer holds the adjacency's block at every point, for any proof data over V's array
    that says the body leaves that block where it found it. The window is an input, never idle, its blocks uncut. -/
theorem in0_holds_block_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The support's staging buffer holds the support's block at every point although it is fetched at every second
    one only: where it is not fetched its block index has not moved (it reads the first grid axis alone), and the
    body left the block in place. -/
theorem in1_holds_block_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The scaling column's staging buffer holds the column's block at every point. -/
theorem in2_holds_block_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The bias's staging buffer holds the bias at every point although it is fetched at the first only: its block
    index is constant. -/
theorem in3_holds_block_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer whole -/

abbrev wholeA : Rect S1x1024x2048 := Rect.unit (s := S1x1024x2048) ![0, 0, 0] S1x1024x2048.size inb_S1x1024x2048_S1x1024x2048_0_0_0
abbrev wholeS : Rect S1x2048x256 := Rect.unit (s := S1x2048x256) ![0, 0, 0] S1x2048x256.size inb_S1x2048x256_S1x2048x256_0_0_0
abbrev wholeD : Rect S1x1024x1 := Rect.unit (s := S1x1024x1) ![0, 0, 0] S1x1024x1.size inb_S1x1024x1_S1x1024x1_0_0_0
abbrev wholeB : Rect S256 := Rect.unit (s := S256) ![0] S256.size inb_S256_S256_0
abbrev wholeO : Rect S1x1024x256 := Rect.unit (s := S1x1024x256) ![0, 0, 0] S1x1024x256.size inb_S1x1024x256_S1x1024x256_0_0_0

/-! ## What the body leaves in the output buffer -/

/-- The output buffer after the body, from the four input blocks: its one store, of the payload of the four
    inputs each loaded whole, over the whole buffer. -/
def out2 (x0 : Vec F S1x1024x2048 .f32) (x1 : Vec F S1x2048x256 .f32) (x2 : Vec F S1x1024x1 .f32) (x3 : Vec F S256 .f32) :
    Vec F S1x1024x256 .f32 :=
  View.canon [⟨wholeO, k2_pay1 (View.ld x0 wholeA) (View.ld x1 wholeS) (View.ld x2 wholeD) (View.ld x3 wholeB)⟩]

/-- The one store covers the buffer: its rectangle is the whole shape. -/
theorem out2_covered (p : Vec F S1x1024x256 .f32) (y : S1x1024x256.Idx) :
    ∃ pc ∈ ([⟨wholeO, p⟩] : List (View.Piece (Elt F) S1x1024x256 .f32)), y ∈ pc.1.set :=
  View.cover_of_tiled [⟨wholeO, p⟩] S1x1024x256.size (by rfl) y

/-! ## The body's triple -/

set_option maxHeartbeats 1000000 in
/-- The kernel on whole staging memrefs, the inputs' reading x0 to x3 and the output's holding anything, runs to a
    state where the inputs are as they were and the output's reads out2 of them. The load of the output buffer
    reads whatever it held; no later operation uses the value. -/
theorem kernel2_triple (c : Dev nD) (E : Set ℕ) (i : grid2.Coords)
    (arg2 : Memref sig .tc .vmem S1x1024x2048 .f32) (harg2 : arg2.IsWhole)
    (arg3 : Memref sig .tc .vmem S1x2048x256 .f32) (harg3 : arg3.IsWhole)
    (arg4 : Memref sig .tc .vmem S1x1024x1 .f32) (harg4 : arg4.IsWhole)
    (arg5 : Memref sig .tc .vmem S256 .f32) (harg5 : arg5.IsWhole)
    (arg6 : Memref sig .tc .vmem S1x1024x256 .f32) (harg6 : arg6.IsWhole)
    (x0 : Vec F S1x1024x2048 .f32) (x1 : Vec F S1x2048x256 .f32) (x2 : Vec F S1x1024x1 .f32) (x3 : Vec F S256 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out2 x0 x1 x2 x3)) -∗ K ⟨⟩))
      ⊢ wp frame (wpE (defs₀ (F := F)) Variants.none c none) E
          (cc2__main_kernel i arg2 harg2 arg3 harg3 arg4 harg4 arg5 harg5 arg6 harg6) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out2_covered _)

/-! ## The region's proof data -/

/-- The proof data of the region on core c: the arrays as V holds them; after the body at point t each input's
    buffer at its block and the output's at out2 of the four blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

/-- The proof data's arrays are V's. -/
theorem A_eq2 (c : Dev nD) (w : Fin cfg2.W) : (dat2 V c).A w = V c (Pipeline.arrRef spec2 w) := by
  dsimp only [dat2]

/-- What the body leaves, window by window. -/
theorem after2_in0 (c : Dev nD) (t : Fin cfg2.N) : (dat2 V c).after 0 t = iblk2 V c 0 t := by dsimp only [dat2]
theorem after2_in1 (c : Dev nD) (t : Fin cfg2.N) : (dat2 V c).after 1 t = iblk2 V c 1 t := by dsimp only [dat2]
theorem after2_in2 (c : Dev nD) (t : Fin cfg2.N) : (dat2 V c).after 2 t = iblk2 V c 2 t := by dsimp only [dat2]
theorem after2_in3 (c : Dev nD) (t : Fin cfg2.N) : (dat2 V c).after 3 t = iblk2 V c 3 t := by dsimp only [dat2]
theorem after2_out (c : Dev nD) (t : Fin cfg2.N) :
    (dat2 V c).after 4 t = out2 (iblk2 V c 0 t) (iblk2 V c 1 t) (iblk2 V c 2 t) (iblk2 V c 3 t) := by dsimp only [dat2]

/-- Each input's current staging buffer holds its block at every point. -/
theorem in0_holds_block (c : Dev nD) (t : Fin cfg2.N) (d) : (dat2 V c).before 0 t d = iblk2 V c 0 t :=
  in0_holds_block_of V (dat2 V c) (A_eq2 V c 0) (after2_in0 V c) t d
theorem in1_holds_block (c : Dev nD) (t : Fin cfg2.N) (d) : (dat2 V c).before 1 t d = iblk2 V c 1 t :=
  in1_holds_block_of V (dat2 V c) (A_eq2 V c 1) (after2_in1 V c) t d
theorem in2_holds_block (c : Dev nD) (t : Fin cfg2.N) (d) : (dat2 V c).before 2 t d = iblk2 V c 2 t :=
  in2_holds_block_of V (dat2 V c) (A_eq2 V c 2) (after2_in2 V c) t d
theorem in3_holds_block (c : Dev nD) (t : Fin cfg2.N) (d) : (dat2 V c).before 3 t d = iblk2 V c 3 t :=
  in3_holds_block_of V (dat2 V c) (A_eq2 V c 3) (after2_in3 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the kernel's triple applies; the invariant and
    what the core owes pass through unread. -/
theorem body2_triple (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [in0_holds_block, in1_holds_block, in2_holds_block, in3_holds_block]
  rw [show (dat2 V c).Φ t.succ = (dat2 V c).Φ t.castSucc from rfl,
    show (dat2 V c).owesAt () t.succ = (dat2 V c).owesAt () t.castSucc from rfl,
    after2_in0, after2_in1, after2_in2, after2_in3, after2_out]
  iintro ⟨HΦ, Ho, ⟨%d0, H0⟩, ⟨%d1, H1⟩, ⟨%d2, H2⟩, ⟨%d3, H3⟩, ⟨%d4, H4⟩⟩
  iapply (kernel2_triple c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact body2_triple V c t

end Cert.Kernel.R2

end
-- ==== Proof.K.Run.lean ====
/-
  The whole program's run. Its three regions follow one another with no host operation between them: the first
  leaves the scales in a buffer of its own, the second the scaled projections, the third the result. Between two
  regions every buffer outside the kernels' scopes holds what the launch gave it, except that each region's output
  array holds what that region's write-backs left. Each region is entered and left at those contents, and at the end
  the result buffer is read off the last of them while every argument is traced back to the launch.
-/
import proofs.«171595_j82643760710010_1_alg».proof.Proof.K.Region0
import proofs.«171595_j82643760710010_1_alg».proof.Proof.K.Region1
import proofs.«171595_j82643760710010_1_alg».proof.Proof.K.Region2
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the regions -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves, every other buffer as before. -/
def W1 (c : Dev nD) : Valuation τ sig (Elt F) :=
  Pipeline.withArrays spec0 c (W0 m ρ c) fun w => (R0.dat0 (V0 m ρ) c).arrAt w cfg0.N
theorem W1_arr (c : Dev nD) (w : Fin cfg0.W) :
    W1 m ρ c (Proc.devRef .tc (Pipeline.arrRef spec0 w)) = (R0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what the pipeline leaves, every other buffer as before. -/
def W2 (c : Dev nD) : Valuation τ sig (Elt F) :=
  Pipeline.withArrays spec1 c (W1 m ρ c) fun w => (R1.dat1 (V1 m ρ) c).arrAt w cfg1.N
theorem W2_arr (c : Dev nD) (w : Fin cfg1.W) :
    W2 m ρ c (Proc.devRef .tc (Pipeline.arrRef spec1 w)) = (R1.dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (R1.dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what the pipeline leaves, every other buffer as before. -/
def W3 (c : Dev nD) : Valuation τ sig (Elt F) :=
  Pipeline.withArrays spec2 c (W2 m ρ c) fun w => (R2.dat2 (V2 m ρ) c).arrAt w cfg2.N
theorem W3_arr (c : Dev nD) (w : Fin cfg2.W) :
    W3 m ρ c (Proc.devRef .tc (Pipeline.arrRef spec2 w)) = (R2.dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (R2.dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((R1.dat1 (V1 m ρ) c).arrAt_in 0 rfl _).trans (R1.A_eq1 (V1 m ρ) c 0))
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((R2.dat2 (V2 m ρ) c).arrAt_in 0 rfl _).trans (R2.A_eq2 (V2 m ρ) c 0))
    _ = W1 m ρ c (Proc.devRef .tc main_arg1) := W2_of_ne m ρ c main_arg1 (by decide)
    _ = W0 m ρ c (Proc.devRef .tc main_arg1) := (W1_arr m ρ c 0).trans (((R0.dat0 (V0 m ρ) c).arrAt_in 0 rfl _).trans (R0.A_eq0 (V0 m ρ) c 0))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((R1.dat1 (V1 m ρ) c).arrAt_in 1 rfl _).trans (R1.A_eq1 (V1 m ρ) c 1))
    _ = W0 m ρ c (Proc.devRef .tc main_arg2) := W1_of_ne m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 3).trans (((R2.dat2 (V2 m ρ) c).arrAt_in 3 rfl _).trans (R2.A_eq2 (V2 m ρ) c 3))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- The result buffer ends at what the third region's write-backs leave. -/
theorem W3_main_v2 (c : Dev nD) : W3 m ρ c (Proc.devRef .tc main_v2) = (R2.dat2 (V2 m ρ) c).arrAt 4 cfg2.N :=
  W3_arr m ρ c 4

/-! ## The proof data family and the thread state -/

abbrev adm : (p : Fin 3) → (pcfgs (F := F) p).Adm := fun p => (cfgs p).toPCfg_adm
/-- Every region's proof data, each at the contents its region is entered with. -/
def pdats : (p : Fin 3) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V1 m ρ) c
  | ⟨2, _⟩ => fun c => R2.dat2 (V2 m ρ) c
abbrev 𝒱₀ : Variants := Variants.none
abbrev L : GSem nD τ sig → Finset Unit := fun _ => ∅
abbrev lv : GSem nD τ sig → Unit → ℕ := fun _ _ => 0
/-- What rides beside the buffers through every region: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 as a segment: entered with every unscoped buffer at the contents before it, left with them at the contents
    after it; its arrays are split out of the unscoped buffers on entry and put back at what the pipeline leaves on exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.hin0 (V0 m ρ) c)
    unfold Pipeline.ΦA
    iintro ⟨Hp, -, Hr⟩
    isplitl [Hr]; · iexact Hr
    iexact Hp
  hout c := by
    rw [Pipeline.ownSems0_none]
    refine (R0.hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it; its arrays are split out of the unscoped buffers on entry and put back at what the pipeline leaves on exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the contents
    after it; its arrays are split out of the unscoped buffers on entry and put back at what the pipeline leaves on exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ), .region (reg2 m ρ) ]

set_option backward.isDefEq.respectTransparency.types false in
/-- From any memory with zero counters every weakly fair execution of the program terminates, nothing faulting, with
    the result buffer at what the third region's write-backs leave and every argument as launched. -/
theorem run : θ_run defs (onTc (τ := τ) (main (F := F))) ⟨m, fun _ => 0, ρ⟩ (fun r => ∀ c : Dev nD,
      r.2.mem ((c.tc : Thread nD τ).loc main_v2) = (R2.dat2 (V2 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          Prog.lift (.customCall (Pipeline.entry 1) ()),
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Kernel.Run

end
-- ==== Proof.KI.R0Defs.lean ====
/-
  Region 0 forms, for each batch, the column sums of the adjacency in a scratch column carried across the two
  row tiles of the batch, and at the second tile stores their reciprocal square roots. This module fixes the
  vocabulary the two runs of its body share: which of the body's two branches a grid point takes (the first
  tile of a batch resets the scratch; the second stores the result), where the result window is idle, and the
  memrefs the body is called with.
-/
import proofs.«171595_j82643760710010_1_alg».proof.Proof.Gen.KernelIdeal.Launch
import proofs.«171595_j82643760710010_1_alg».proof.Proof.Gen.KernelIdeal.Skeleton
import proofs.«171595_j82643760710010_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile is in its staging buffer at every point: it is fetched at every point and the body only reads it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branches -/

/-- "This is the first row tile of its batch": the condition under which the body resets the scratch. -/
abbrev isFirst (i : grid0.Coords) : Prop := (Scalar.cmpi .ne (Scalar.extui (Scalar.cmpi .eq (BitVec.ofNat 32 (i 1).val) 0#32)) 0#32) = 1#1
/-- It holds at the even points. -/
theorem isFirst_iff : ∀ t : Fin cfg0.N, isFirst (grid0.coords t) ↔ t.val % 2 = 0 :=
  (by decide +kernel : ∀ t : Fin grid0.N, isFirst (grid0.coords t) ↔ t.val % 2 = 0)

/-- "This is the last row tile of its batch": the condition under which the body stores the result. -/
abbrev isLast (i : grid0.Coords) : Prop := k0_cond2 i = 1#1
/-- It holds at the odd points. -/
theorem isLast_iff : ∀ t : Fin cfg0.N, isLast (grid0.coords t) ↔ t.val % 2 = 1 :=
  (by decide +kernel : ∀ t : Fin grid0.N, isLast (grid0.coords t) ↔ t.val % 2 = 1)

/-! ## Where the windows are idle -/

theorem live0_0 : ∀ t : Fin cfg0.N, cfg0.idle 0 (grid0.coords t) = false := by decide +kernel
/-- At a first tile nothing is stored into the result window, -/
theorem idle0_1_first : ∀ t : Fin cfg0.N, isFirst (grid0.coords t) → ¬isLast (grid0.coords t) → cfg0.idle 1 (grid0.coords t) = true := by decide +kernel
/-- and its block is not written back there. -/
theorem noFlush0_1_first : ∀ t : Fin cfg0.N, isFirst (grid0.coords t) → ¬isLast (grid0.coords t) → (cfg0.win 1).flush t = false := by decide +kernel
/-- At a last tile the result window is stored. -/
theorem live0_1_last : ∀ t : Fin cfg0.N, ¬isFirst (grid0.coords t) → isLast (grid0.coords t) → cfg0.idle 1 (grid0.coords t) = false := by decide +kernel

/-! ## The memrefs the body is called with -/

abbrev VO0_1 : View sig .tc .vmem S1x2048x1 .f32 := (Memref.whole cc0_stg1_0 : Memref sig .tc .vmem S1x2048x1 .f32).view
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x1 .f32 := win0_1.stage (cfg0.slots t 1)
abbrev hs0_1 (t : Fin cfg0.N) : (ms0_1 t).IsWhole := hstage0_1 ((cfg0.slots t 1).cast nbuf0_1)
/-- The scratch column. -/
abbrev scM0 : Memref sig .tc .vmem S2048x1 .f32 := Memref.whole cc0_scratch0
abbrev VS0 : View sig .tc .vmem S2048x1 .f32 := scM0.view

/-- The core's other scoped buffers (the later regions' staging buffers), each at some contents: they ride along untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The region's resting invariant: the scratch at some contents, the other scoped buffers, the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

end Cert.KernelIdeal.R0

end
-- ==== Proof.KI.R0RunA.lean ====
/-
  The body of region 0 at the first row tile of a batch: it resets the scratch column to zero, adds the tile's
  column sums to it, and stores nothing into the result window. Whatever the scratch held before is irrelevant;
  what it holds afterwards is recorded as the list of stores the run makes into it.
-/
import proofs.«171595_j82643760710010_1_alg».proof.Proof.KI.R0Defs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the adjacency tile at `x0`, the result window at contents `xi1` it never touches, the scratch
    at anything — the body runs to its continuation with the tile and the result window as they were and the
    scratch overwritten by the stores `LS0` (found by running the body). -/
noncomputable def runFirst (c : Dev nD) (i : grid0.Coords) (arg2 : Memref sig .tc .vmem S1x1024x2048 .f32) (harg2 : arg2.IsWhole) (arg3 : Memref sig .tc .vmem S1x2048x1 .f32) (harg3 : arg3.IsWhole) (arg4 : Memref sig .tc .vmem S2048x1 .f32) (harg4 : arg4.IsWhole) (hc0 : isFirst i) (hc1 : ¬isLast i)
    (x0 : Vec F S1x1024x2048 .f32) :
    { LS0 : List (View.Piece (Elt F) S2048x1 .f32) //
      ∀ (xi1 : Vec F S1x2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__d_kernel i arg2 harg2 arg3 harg3 arg4 harg4) K } := by
  refine ⟨?_, fun xi1 E K => ?run⟩
  case run =>
    simp only [cc0__d_kernel_eq_skeleton]; unfold cc0__d_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.R0

end
-- ==== Proof.KI.R0RunB.lean ====
/-
  The body of region 0 at the last row tile of a batch: it adds the tile's column sums to the scratch column the
  first tile left, and stores the reciprocal square roots of the completed sums into the result window.
-/
import proofs.«171595_j82643760710010_1_alg».proof.Proof.KI.R0RunA

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the adjacency tile at `x0`, the result window at anything, the scratch at `xs0` (what the
    first tile left) — the body runs to its continuation with the tile as it was, the result window overwritten by the
    stores `L1` and the scratch by the stores `LS0` (both found by running the body). -/
noncomputable def runLast (c : Dev nD) (i : grid0.Coords) (arg2 : Memref sig .tc .vmem S1x1024x2048 .f32) (harg2 : arg2.IsWhole) (arg3 : Memref sig .tc .vmem S1x2048x1 .f32) (harg3 : arg3.IsWhole) (arg4 : Memref sig .tc .vmem S2048x1 .f32) (harg4 : arg4.IsWhole) (hc0 : ¬isFirst i) (hc1 : isLast i)
    (x0 : Vec F S1x1024x2048 .f32) (xs0 : Vec F S2048x1 .f32) :
    Σ' (L1 : List (View.Piece (Elt F) S1x2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__d_kernel i arg2 harg2 arg3 harg3 arg4 harg4) K } := by
  refine ⟨?_, ?_, fun E K => ?run⟩
  case run =>
    simp only [cc0__d_kernel_eq_skeleton]; unfold cc0__d_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.R0

end
-- ==== Proof.KI.Region0.lean ====
/-
  Region 0's proof data and body obligation. Along the grid the scratch column holds, after the first row tile of
  a batch, that tile's column sums, and after the second the whole columns' sums; the result window is stored
  only at the second tile, with the reciprocal square roots. What each point leaves is defined by recursion on the
  point (a second tile starts from what the first left), the region's invariant carries the scratch at exactly
  that, and the body's run at a point is the run of the branch the point's parity selects.
-/
import proofs.«171595_j82643760710010_1_alg».proof.Proof.KI.R0RunB

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch a point takes, from its parity -/

theorem first_of_even (t : Fin cfg0.N) (h : t.val % 2 = 0) : isFirst (grid0.coords t) := (isFirst_iff t).mpr h
theorem notLast_of_even (t : Fin cfg0.N) (h : t.val % 2 = 0) : ¬isLast (grid0.coords t) :=
  fun hl => by have := (isLast_iff t).mp hl; omega
theorem notFirst_of_odd (t : Fin cfg0.N) (h : ¬t.val % 2 = 0) : ¬isFirst (grid0.coords t) :=
  fun hf => h ((isFirst_iff t).mp hf)
theorem last_of_odd (t : Fin cfg0.N) (h : ¬t.val % 2 = 0) : isLast (grid0.coords t) :=
  (isLast_iff t).mpr (by omega)

/-! ## The found stores cover their buffers -/

theorem scoverFirst (c : Dev nD) (i : grid0.Coords) (arg2 : Memref sig .tc .vmem S1x1024x2048 .f32) (harg2 : arg2.IsWhole) (arg3 : Memref sig .tc .vmem S1x2048x1 .f32) (harg3 : arg3.IsWhole) (arg4 : Memref sig .tc .vmem S2048x1 .f32) (harg4 : arg4.IsWhole) (hc0 : isFirst i) (hc1 : ¬isLast i)
    (x0 : Vec F S1x1024x2048 .f32) (y : S2048x1.Idx) :
    ∃ pc ∈ (runFirst c i arg2 harg2 arg3 harg3 arg4 harg4 hc0 hc1 x0).1, y ∈ pc.1.set :=
  View.cover_of_tiledL (runFirst c i arg2 harg2 arg3 harg3 arg4 harg4 hc0 hc1 x0).1 S2048x1.size (by sl_kernel_rfl) y

theorem scoverLast (c : Dev nD) (i : grid0.Coords) (arg2 : Memref sig .tc .vmem S1x1024x2048 .f32) (harg2 : arg2.IsWhole) (arg3 : Memref sig .tc .vmem S1x2048x1 .f32) (harg3 : arg3.IsWhole) (arg4 : Memref sig .tc .vmem S2048x1 .f32) (harg4 : arg4.IsWhole) (hc0 : ¬isFirst i) (hc1 : isLast i)
    (x0 : Vec F S1x1024x2048 .f32) (xs0 : Vec F S2048x1 .f32) (y : S2048x1.Idx) :
    ∃ pc ∈ (runLast c i arg2 harg2 arg3 harg3 arg4 harg4 hc0 hc1 x0 xs0).2.1, y ∈ pc.1.set :=
  View.cover_of_tiledL (runLast c i arg2 harg2 arg3 harg3 arg4 harg4 hc0 hc1 x0 xs0).2.1 S2048x1.size (by sl_kernel_rfl) y

theorem coverLast (c : Dev nD) (i : grid0.Coords) (arg2 : Memref sig .tc .vmem S1x1024x2048 .f32) (harg2 : arg2.IsWhole) (arg3 : Memref sig .tc .vmem S1x2048x1 .f32) (harg3 : arg3.IsWhole) (arg4 : Memref sig .tc .vmem S2048x1 .f32) (harg4 : arg4.IsWhole) (hc0 : ¬isFirst i) (hc1 : isLast i)
    (x0 : Vec F S1x1024x2048 .f32) (xs0 : Vec F S2048x1 .f32) (y : S1x2048x1.Idx) :
    ∃ pc ∈ (runLast c i arg2 harg2 arg3 harg3 arg4 harg4 hc0 hc1 x0 xs0).1, y ∈ pc.1.set :=
  View.cover_of_tiledL (runLast c i arg2 harg2 arg3 harg3 arg4 harg4 hc0 hc1 x0 xs0).1 S1x2048x1.size (by sl_kernel_rfl) y

section
variable (V : (c : Dev nD) → (b : Ref sig .tc) → Buf (Elt F) ((c : Thread nD τ).loc b))

/-! ## What a point leaves -/

/-- The scratch column after a first tile: the run's stores read back. -/
def accFirstAt (c : Dev nD) (t : Fin cfg0.N) (h : t.val % 2 = 0) : Vec F S2048x1 .f32 :=
  VS0.read (Elt F) (VS0.writes (Elt F) VS0.junk (runFirst c (grid0.coords t) (ms0_0 t) (hs0_0 t) (ms0_1 t) (hs0_1 t) scM0 (Memref.isWhole_whole _) (first_of_even t h) (notLast_of_even t h) (iblk0 V c 0 t)).1)

/-- The scratch column after a last tile, from what the first tile left in it. -/
def accLastAt (c : Dev nD) (t : Fin cfg0.N) (h : ¬t.val % 2 = 0) (xs0 : Vec F S2048x1 .f32) : Vec F S2048x1 .f32 :=
  VS0.read (Elt F) (VS0.writes (Elt F) VS0.junk (runLast c (grid0.coords t) (ms0_0 t) (hs0_0 t) (ms0_1 t) (hs0_1 t) scM0 (Memref.isWhole_whole _) (notFirst_of_odd t h) (last_of_odd t h) (iblk0 V c 0 t) xs0).2.1)

/-- The result window after a last tile. -/
def outLastAt (c : Dev nD) (t : Fin cfg0.N) (h : ¬t.val % 2 = 0) (xs0 : Vec F S2048x1 .f32) : Vec F S1x2048x1 .f32 :=
  VO0_1.read (Elt F) (VO0_1.writes (Elt F) VO0_1.junk (runLast c (grid0.coords t) (ms0_0 t) (hs0_0 t) (ms0_1 t) (hs0_1 t) scM0 (Memref.isWhole_whole _) (notFirst_of_odd t h) (last_of_odd t h) (iblk0 V c 0 t) xs0).1)

/-- A first tile stores nothing into the result window; nothing consults its contents there (it is neither written
    back nor read at the next point), so any value serves as the record. -/
def idleOut : Vec F S1x2048x1 .f32 := VO0_1.read (Elt F) VO0_1.junk

/-- What the result window's staging buffer and the scratch column hold after the body at position `n`. -/
def outsAt0 (c : Dev nD) : (n : ℕ) → n < cfg0.N → Vec F S1x2048x1 .f32 × Vec F S2048x1 .f32
  | 0, hn => (idleOut, accFirstAt V c ⟨0, hn⟩ (Nat.zero_mod _))
  | n + 1, hn =>
    if h0 : (n + 1) % 2 = 0 then
      (idleOut, accFirstAt V c ⟨n + 1, hn⟩ h0)
    else
      (outLastAt V c ⟨n + 1, hn⟩ h0 (outsAt0 c n (Nat.lt_of_succ_lt hn)).2, accLastAt V c ⟨n + 1, hn⟩ h0 (outsAt0 c n (Nat.lt_of_succ_lt hn)).2)

theorem outsAt0_first (c : Dev nD) (t : Fin cfg0.N) (h : t.val % 2 = 0) :
    outsAt0 V c t.val t.isLt = (idleOut, accFirstAt V c t h) := by
  obtain ⟨n, hn⟩ := t
  cases n with
  | zero => exact rfl
  | succ n => exact (dif_pos h).trans rfl

theorem outsAt0_last (c : Dev nD) (t : Fin cfg0.N) (h : ¬t.val % 2 = 0) :
    outsAt0 V c t.val t.isLt = (outLastAt V c t h (outsAt0 V c (t.val - 1) (Nat.lt_of_le_of_lt (Nat.sub_le _ _) t.isLt)).2, accLastAt V c t h (outsAt0 V c (t.val - 1) (Nat.lt_of_le_of_lt (Nat.sub_le _ _) t.isLt)).2) := by
  obtain ⟨n, hn⟩ := t
  cases n with
  | zero => exact (by exfalso; exact h (Nat.zero_mod _))
  | succ n => exact (dif_neg h).trans rfl

/-! ## The region's invariant -/

/-- Before the first point the resting invariant; afterwards the scratch at what the point before left, the other
    scoped buffers, and the generator register. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

/-- Region 0's proof data on core `c`: the arrays as the region finds them; after the body at point `t` the adjacency
    tile's buffer at its block and the result window's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The adjacency tile's memref holds its block; the point's parity says which branch runs.
    At a first tile the invariant hands the scratch over at whatever it holds and takes it back at the tile's column
    sums, the result window untouched; at a last tile it hands the scratch over at what the first tile left and takes
    it back at the completed sums, the result window at their reciprocal square roots. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  by_cases h0 : t.val % 2 = 0
  · rw [show (dat0 V c).leavesExact 0 t = owns (c : Thread nD τ) (ms0_0 t) fullShare ((dat0 V c).after 0 t) from by
      unfold Dat.leavesExact; rw [live0_0 t], after0_0]
    rw [Dat.leavesExact_idle (dat0 V c) 1 t (idle0_1_first t (first_of_even t h0) (notLast_of_even t h0)) (noFlush0_1_first t (first_of_even t h0) (notLast_of_even t h0))]
    rw [outsAt0_first V c t h0]
    unfold accFirstAt; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩⟩
      iapply ((runFirst c (grid0.coords t) _ _ _ _ _ _ (first_of_even t h0) (notLast_of_even t h0) (iblk0 V c 0 t)).2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverFirst c _ _ _ _ _ _ _ _ _ _)
          iexact Hrest
        iexact Hg
      isplitl [Ho]; · iexact Ho
      isplitl [H0]; · iexact H0
      iexists _; iexact H1
    · rw [PhiS_castSucc V c t, PhiS_pos V c _ _ hz]
      iintro ⟨⟨⟨HS0, Hrest⟩, Hg⟩, Ho, ⟨%d0, H0⟩, ⟨%d1, H1⟩⟩
      iapply ((runFirst c (grid0.coords t) _ _ _ _ _ _ (first_of_even t h0) (notLast_of_even t h0) (iblk0 V c 0 t)).2 _ Set.univ _)
      isplitl [H0]; · iexact H0
      isplitl [H1]; · iexact H1
      isplitl [HS0]; · iexists _; iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverFirst c _ _ _ _ _ _ _ _ _ _)
          iexact Hrest
        iexact Hg
      isplitl [Ho]; · iexact Ho
      isplitl [H0]; · iexact H0
      iexists _; iexact H1
  · rw [show (dat0 V c).leavesExact 0 t = owns (c : Thread nD τ) (ms0_0 t) fullShare ((dat0 V c).after 0 t) from by
      unfold Dat.leavesExact; rw [live0_0 t], after0_0]
    rw [show (dat0 V c).leavesExact 1 t = owns (c : Thread nD τ) (ms0_1 t) fullShare ((dat0 V c).after 1 t) from by
      unfold Dat.leavesExact; rw [live0_1_last t (notFirst_of_odd t h0) (last_of_odd t h0)], after0_1]
    rw [outsAt0_last V c t h0]
    unfold outLastAt accLastAt; (try dsimp only)
    have hz : t.val ≠ 0 := fun hz => h0 (by rw [hz])
    rw [PhiS_castSucc V c t, PhiS_pos V c _ _ hz]
    iintro ⟨⟨⟨HS0, Hrest⟩, Hg⟩, Ho, ⟨%d0, H0⟩, ⟨%d1, H1⟩⟩
    iapply ((runLast c (grid0.coords t) _ _ _ _ _ _ (notFirst_of_odd t h0) (last_of_odd t h0) (iblk0 V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scoverLast c _ _ _ _ _ _ _ _ _ _ _)
        iexact Hrest
      iexact Hg
    isplitl [Ho]; · iexact Ho
    isplitl [H0]; · iexact H0
    unfold owns; iexists _; isplitr
    swap; · iexact H1
    ipureintro; exact View.read_writes_of_cover _ _ _ _ _ (coverLast c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the resting one back: what the scratch holds is forgotten. -/
theorem hout0 (c : Dev nD) : (dat0 V c).Φ (Fin.last cfg0.N) ⊢ Pipeline.ΦA spec0 c := by
  have hne : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, Hrest⟩, Hg⟩
  isplitl [HS0 Hrest]
  · isplitl [HS0]
    · iexists _; iexact HS0
    iexact Hrest
  iexact Hg

end

end Cert.KernelIdeal.R0

end
-- ==== Proof.KI.Region1.lean ====
/- The second of the kernel program's three pipelined regions (the "support" kernel), at the contents V the
   TensorCore's buffers hold when the region is entered, for any float instance.

   The region has four windows. Windows 0, 1 and 2 are inputs: a [1,2048,256] block of the features, the whole
   [256,256] weight (one block, the same at every point, so fetched at the first point only), and a [1,2048,1] block
   of the scaling column. Window 3 is the output, a [1,2048,256] block. The body loads each input whole, loads the
   output buffer (a value it never uses), and stores one payload over the whole output buffer.

   What is proved: each input's staging buffer holds that window's block at every point, fetched there or not; the
   body leaves the output buffer at the payload of the three blocks, whatever it held; and so the library's body
   obligation holds for the proof data whose arrays are V's. -/
import proofs.«171595_j82643760710010_1_alg».proof.Proof.Gen.KernelIdeal.Launch
import proofs.«171595_j82643760710010_1_alg».proof.Proof.Gen.KernelIdeal.Skeleton
import proofs.«171595_j82643760710010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows is looked at once per coordinate of the long axis
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t: the part of its array, as V holds it, that the window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The features' staging buffer holds the features' block at every point, for any proof data over V's array that
    says the body leaves that block where it found it. The window is an input, never idle, its blocks uncut. -/
theorem in0_holds_block_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's staging buffer holds the weight at every point although it is fetched at the first only: where it
    is not fetched its block index has not moved (it is constant), and the body left the block in place. -/
theorem in1_holds_block_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scaling column's staging buffer holds the column's block at every point. -/
theorem in2_holds_block_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer whole -/

abbrev wholeX : Rect S1x2048x256 := Rect.unit (s := S1x2048x256) ![0, 0, 0] S1x2048x256.size inb_S1x2048x256_S1x2048x256_0_0_0
abbrev wholeW : Rect S256x256 := Rect.unit (s := S256x256) ![0, 0] S256x256.size inb_S256x256_S256x256_0_0
abbrev wholeD : Rect S1x2048x1 := Rect.unit (s := S1x2048x1) ![0, 0, 0] S1x2048x1.size inb_S1x2048x1_S1x2048x1_0_0_0

/-! ## What the body leaves in the output buffer -/

/-- The output buffer after the body, from the three input blocks: its one store, of the payload of the three
    inputs each loaded whole, over the whole buffer. -/
def out1 (x0 : Vec F S1x2048x256 .f32) (x1 : Vec F S256x256 .f32) (x2 : Vec F S1x2048x1 .f32) : Vec F S1x2048x256 .f32 :=
  View.canon [⟨wholeX, k1_pay1 (View.ld x0 wholeX) (View.ld x1 wholeW) (View.ld x2 wholeD)⟩]

/-- The one store covers the buffer: its rectangle is the whole shape. -/
theorem out1_covered (p : Vec F S1x2048x256 .f32) (y : S1x2048x256.Idx) :
    ∃ pc ∈ ([⟨wholeX, p⟩] : List (View.Piece (Elt F) S1x2048x256 .f32)), y ∈ pc.1.set :=
  View.cover_of_tiled [⟨wholeX, p⟩] S1x2048x256.size (by rfl) y

/-! ## The body's triple -/

set_option maxHeartbeats 1000000 in
/-- The kernel on whole staging memrefs, the inputs' reading x0, x1, x2 and the output's holding anything, runs to a
    state where the inputs are as they were and the output's reads out1 of them. The load of the output buffer
    reads whatever it held; no later operation uses the value. -/
theorem kernel1_triple (c : Dev nD) (E : Set ℕ) (i : grid1.Coords)
    (arg1 : Memref sig .tc .vmem S1x2048x256 .f32) (harg1 : arg1.IsWhole)
    (arg2 : Memref sig .tc .vmem S256x256 .f32) (harg2 : arg2.IsWhole)
    (arg3 : Memref sig .tc .vmem S1x2048x1 .f32) (harg3 : arg3.IsWhole)
    (arg4 : Memref sig .tc .vmem S1x2048x256 .f32) (harg4 : arg4.IsWhole)
    (x0 : Vec F S1x2048x256 .f32) (x1 : Vec F S256x256 .f32) (x2 : Vec F S1x2048x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1 x0 x1 x2)) -∗ K ⟨⟩))
      ⊢ wp frame (wpE (defs₀ (F := F)) Variants.none c none) E (cc1__support_kernel i arg1 harg1 arg2 harg2 arg3 harg3 arg4 harg4) K := by
  simp only [cc1__support_kernel_eq_skeleton]; unfold cc1__support_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out1_covered _)

/-! ## The region's proof data -/

/-- The proof data of the region on core c: the arrays as V holds them; after the body at point t each input's
    buffer at its block and the output's at out1 of the three blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

/-- The proof data's arrays are V's. -/
theorem A_eq1 (c : Dev nD) (w : Fin cfg1.W) : (dat1 V c).A w = V c (Pipeline.arrRef spec1 w) := by
  dsimp only [dat1]

/-- What the body leaves, window by window. -/
theorem after1_in0 (c : Dev nD) (t : Fin cfg1.N) : (dat1 V c).after 0 t = iblk1 V c 0 t := by dsimp only [dat1]
theorem after1_in1 (c : Dev nD) (t : Fin cfg1.N) : (dat1 V c).after 1 t = iblk1 V c 1 t := by dsimp only [dat1]
theorem after1_in2 (c : Dev nD) (t : Fin cfg1.N) : (dat1 V c).after 2 t = iblk1 V c 2 t := by dsimp only [dat1]
theorem after1_out (c : Dev nD) (t : Fin cfg1.N) :
    (dat1 V c).after 3 t = out1 (iblk1 V c 0 t) (iblk1 V c 1 t) (iblk1 V c 2 t) := by dsimp only [dat1]

/-- Each input's current staging buffer holds its block at every point. -/
theorem in0_holds_block (c : Dev nD) (t : Fin cfg1.N) (d) : (dat1 V c).before 0 t d = iblk1 V c 0 t :=
  in0_holds_block_of V (dat1 V c) (A_eq1 V c 0) (after1_in0 V c) t d
theorem in1_holds_block (c : Dev nD) (t : Fin cfg1.N) (d) : (dat1 V c).before 1 t d = iblk1 V c 1 t :=
  in1_holds_block_of V (dat1 V c) (A_eq1 V c 1) (after1_in1 V c) t d
theorem in2_holds_block (c : Dev nD) (t : Fin cfg1.N) (d) : (dat1 V c).before 2 t d = iblk1 V c 2 t :=
  in2_holds_block_of V (dat1 V c) (A_eq1 V c 2) (after1_in2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and
    what the core owes pass through unread. -/
theorem body1_triple (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [in0_holds_block, in1_holds_block, in2_holds_block]
  rw [show (dat1 V c).Φ t.succ = (dat1 V c).Φ t.castSucc from rfl,
    show (dat1 V c).owesAt () t.succ = (dat1 V c).owesAt () t.castSucc from rfl,
    after1_in0, after1_in1, after1_in2, after1_out]
  iintro ⟨HΦ, Ho, ⟨%d0, H0⟩, ⟨%d1, H1⟩, ⟨%d2, H2⟩, ⟨%d3, H3⟩⟩
  iapply (kernel1_triple c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact body1_triple V c t

end Cert.KernelIdeal.R1

end
-- ==== Proof.KI.Region2.lean ====
/- The third of the kernel program's three pipelined regions (the "main" kernel), at the contents V the
   TensorCore's buffers hold when the region is entered, for any float instance.

   The region runs over a grid of 8 by 2 points and has five windows. Windows 0 to 3 are inputs: a [1,1024,2048]
   block of the adjacency (moves at every point); a [1,2048,256] block of the support (its index reads the first
   grid axis only, so it moves at every second point); a [1,1024,1] block of the scaling column (moves at every
   point); the whole [256] bias (one block, fetched at the first point only). Window 4 is the output, a
   [1,1024,256] block. The body loads each input whole, loads the output buffer (a value it never uses), and
   stores one payload over the whole output buffer.

   What is proved: each input's staging buffer holds that window's block at every point, fetched there or not; the
   body leaves the output buffer at the payload of the four blocks, whatever it held; and so the library's body
   obligation holds for the proof data whose arrays are V's. -/
import proofs.«171595_j82643760710010_1_alg».proof.Proof.Gen.KernelIdeal.Launch
import proofs.«171595_j82643760710010_1_alg».proof.Proof.Gen.KernelIdeal.Skeleton
import proofs.«171595_j82643760710010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 rows is looked at once per coordinate of the long axis
set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t: the part of its array, as V holds it, that the window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency's staging buffer holds the adjacency's block at every point, for any proof data over V's array
    that says the body leaves that block where it found it. The window is an input, never idle, its blocks uncut. -/
theorem in0_holds_block_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The support's staging buffer holds the support's block at every point although it is fetched at every second
    one only: where it is not fetched its block index has not moved (it reads the first grid axis alone), and the
    body left the block in place. -/
theorem in1_holds_block_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The scaling column's staging buffer holds the column's block at every point. -/
theorem in2_holds_block_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The bias's staging buffer holds the bias at every point although it is fetched at the first only: its block
    index is constant. -/
theorem in3_holds_block_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer whole -/

abbrev wholeA : Rect S1x1024x2048 := Rect.unit (s := S1x1024x2048) ![0, 0, 0] S1x1024x2048.size inb_S1x1024x2048_S1x1024x2048_0_0_0
abbrev wholeS : Rect S1x2048x256 := Rect.unit (s := S1x2048x256) ![0, 0, 0] S1x2048x256.size inb_S1x2048x256_S1x2048x256_0_0_0
abbrev wholeD : Rect S1x1024x1 := Rect.unit (s := S1x1024x1) ![0, 0, 0] S1x1024x1.size inb_S1x1024x1_S1x1024x1_0_0_0
abbrev wholeB : Rect S256 := Rect.unit (s := S256) ![0] S256.size inb_S256_S256_0
abbrev wholeO : Rect S1x1024x256 := Rect.unit (s := S1x1024x256) ![0, 0, 0] S1x1024x256.size inb_S1x1024x256_S1x1024x256_0_0_0

/-! ## What the body leaves in the output buffer -/

/-- The output buffer after the body, from the four input blocks: its one store, of the payload of the four
    inputs each loaded whole, over the whole buffer. -/
def out2 (x0 : Vec F S1x1024x2048 .f32) (x1 : Vec F S1x2048x256 .f32) (x2 : Vec F S1x1024x1 .f32) (x3 : Vec F S256 .f32) :
    Vec F S1x1024x256 .f32 :=
  View.canon [⟨wholeO, k2_pay1 (View.ld x0 wholeA) (View.ld x1 wholeS) (View.ld x2 wholeD) (View.ld x3 wholeB)⟩]

/-- The one store covers the buffer: its rectangle is the whole shape. -/
theorem out2_covered (p : Vec F S1x1024x256 .f32) (y : S1x1024x256.Idx) :
    ∃ pc ∈ ([⟨wholeO, p⟩] : List (View.Piece (Elt F) S1x1024x256 .f32)), y ∈ pc.1.set :=
  View.cover_of_tiled [⟨wholeO, p⟩] S1x1024x256.size (by rfl) y

/-! ## The body's triple -/

set_option maxHeartbeats 1000000 in
/-- The kernel on whole staging memrefs, the inputs' reading x0 to x3 and the output's holding anything, runs to a
    state where the inputs are as they were and the output's reads out2 of them. The load of the output buffer
    reads whatever it held; no later operation uses the value. -/
theorem kernel2_triple (c : Dev nD) (E : Set ℕ) (i : grid2.Coords)
    (arg2 : Memref sig .tc .vmem S1x1024x2048 .f32) (harg2 : arg2.IsWhole)
    (arg3 : Memref sig .tc .vmem S1x2048x256 .f32) (harg3 : arg3.IsWhole)
    (arg4 : Memref sig .tc .vmem S1x1024x1 .f32) (harg4 : arg4.IsWhole)
    (arg5 : Memref sig .tc .vmem S256 .f32) (harg5 : arg5.IsWhole)
    (arg6 : Memref sig .tc .vmem S1x1024x256 .f32) (harg6 : arg6.IsWhole)
    (x0 : Vec F S1x1024x2048 .f32) (x1 : Vec F S1x2048x256 .f32) (x2 : Vec F S1x1024x1 .f32) (x3 : Vec F S256 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out2 x0 x1 x2 x3)) -∗ K ⟨⟩))
      ⊢ wp frame (wpE (defs₀ (F := F)) Variants.none c none) E
          (cc2__main_kernel i arg2 harg2 arg3 harg3 arg4 harg4 arg5 harg5 arg6 harg6) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out2_covered _)

/-! ## The region's proof data -/

/-- The proof data of the region on core c: the arrays as V holds them; after the body at point t each input's
    buffer at its block and the output's at out2 of the four blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

/-- The proof data's arrays are V's. -/
theorem A_eq2 (c : Dev nD) (w : Fin cfg2.W) : (dat2 V c).A w = V c (Pipeline.arrRef spec2 w) := by
  dsimp only [dat2]

/-- What the body leaves, window by window. -/
theorem after2_in0 (c : Dev nD) (t : Fin cfg2.N) : (dat2 V c).after 0 t = iblk2 V c 0 t := by dsimp only [dat2]
theorem after2_in1 (c : Dev nD) (t : Fin cfg2.N) : (dat2 V c).after 1 t = iblk2 V c 1 t := by dsimp only [dat2]
theorem after2_in2 (c : Dev nD) (t : Fin cfg2.N) : (dat2 V c).after 2 t = iblk2 V c 2 t := by dsimp only [dat2]
theorem after2_in3 (c : Dev nD) (t : Fin cfg2.N) : (dat2 V c).after 3 t = iblk2 V c 3 t := by dsimp only [dat2]
theorem after2_out (c : Dev nD) (t : Fin cfg2.N) :
    (dat2 V c).after 4 t = out2 (iblk2 V c 0 t) (iblk2 V c 1 t) (iblk2 V c 2 t) (iblk2 V c 3 t) := by dsimp only [dat2]

/-- Each input's current staging buffer holds its block at every point. -/
theorem in0_holds_block (c : Dev nD) (t : Fin cfg2.N) (d) : (dat2 V c).before 0 t d = iblk2 V c 0 t :=
  in0_holds_block_of V (dat2 V c) (A_eq2 V c 0) (after2_in0 V c) t d
theorem in1_holds_block (c : Dev nD) (t : Fin cfg2.N) (d) : (dat2 V c).before 1 t d = iblk2 V c 1 t :=
  in1_holds_block_of V (dat2 V c) (A_eq2 V c 1) (after2_in1 V c) t d
theorem in2_holds_block (c : Dev nD) (t : Fin cfg2.N) (d) : (dat2 V c).before 2 t d = iblk2 V c 2 t :=
  in2_holds_block_of V (dat2 V c) (A_eq2 V c 2) (after2_in2 V c) t d
theorem in3_holds_block (c : Dev nD) (t : Fin cfg2.N) (d) : (dat2 V c).before 3 t d = iblk2 V c 3 t :=
  in3_holds_block_of V (dat2 V c) (A_eq2 V c 3) (after2_in3 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the kernel's triple applies; the invariant and
    what the core owes pass through unread. -/
theorem body2_triple (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [in0_holds_block, in1_holds_block, in2_holds_block, in3_holds_block]
  rw [show (dat2 V c).Φ t.succ = (dat2 V c).Φ t.castSucc from rfl,
    show (dat2 V c).owesAt () t.succ = (dat2 V c).owesAt () t.castSucc from rfl,
    after2_in0, after2_in1, after2_in2, after2_in3, after2_out]
  iintro ⟨HΦ, Ho, ⟨%d0, H0⟩, ⟨%d1, H1⟩, ⟨%d2, H2⟩, ⟨%d3, H3⟩, ⟨%d4, H4⟩⟩
  iapply (kernel2_triple c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact body2_triple V c t

end Cert.KernelIdeal.R2

end
-- ==== Proof.KI.Run.lean ====
/-
  The whole program's run. Its three regions follow one another with no host operation between them: the first
  leaves the scales in a buffer of its own, the second the scaled projections, the third the result. Between two
  regions every buffer outside the kernels' scopes holds what the launch gave it, except that each region's output
  array holds what that region's write-backs left. Each region is entered and left at those contents, and at the end
  the result buffer is read off the last of them while every argument is traced back to the launch.
-/
import proofs.«171595_j82643760710010_1_alg».proof.Proof.KI.Region0
import proofs.«171595_j82643760710010_1_alg».proof.Proof.KI.Region1
import proofs.«171595_j82643760710010_1_alg».proof.Proof.KI.Region2
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the regions -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves, every other buffer as before. -/
def W1 (c : Dev nD) : Valuation τ sig (Elt F) :=
  Pipeline.withArrays spec0 c (W0 m ρ c) fun w => (R0.dat0 (V0 m ρ) c).arrAt w cfg0.N
theorem W1_arr (c : Dev nD) (w : Fin cfg0.W) :
    W1 m ρ c (Proc.devRef .tc (Pipeline.arrRef spec0 w)) = (R0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what the pipeline leaves, every other buffer as before. -/
def W2 (c : Dev nD) : Valuation τ sig (Elt F) :=
  Pipeline.withArrays spec1 c (W1 m ρ c) fun w => (R1.dat1 (V1 m ρ) c).arrAt w cfg1.N
theorem W2_arr (c : Dev nD) (w : Fin cfg1.W) :
    W2 m ρ c (Proc.devRef .tc (Pipeline.arrRef spec1 w)) = (R1.dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (R1.dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what the pipeline leaves, every other buffer as before. -/
def W3 (c : Dev nD) : Valuation τ sig (Elt F) :=
  Pipeline.withArrays spec2 c (W2 m ρ c) fun w => (R2.dat2 (V2 m ρ) c).arrAt w cfg2.N
theorem W3_arr (c : Dev nD) (w : Fin cfg2.W) :
    W3 m ρ c (Proc.devRef .tc (Pipeline.arrRef spec2 w)) = (R2.dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (R2.dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((R1.dat1 (V1 m ρ) c).arrAt_in 0 rfl _).trans (R1.A_eq1 (V1 m ρ) c 0))
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((R2.dat2 (V2 m ρ) c).arrAt_in 0 rfl _).trans (R2.A_eq2 (V2 m ρ) c 0))
    _ = W1 m ρ c (Proc.devRef .tc main_arg1) := W2_of_ne m ρ c main_arg1 (by decide)
    _ = W0 m ρ c (Proc.devRef .tc main_arg1) := (W1_arr m ρ c 0).trans (((R0.dat0 (V0 m ρ) c).arrAt_in 0 rfl _).trans (R0.A_eq0 (V0 m ρ) c 0))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((R1.dat1 (V1 m ρ) c).arrAt_in 1 rfl _).trans (R1.A_eq1 (V1 m ρ) c 1))
    _ = W0 m ρ c (Proc.devRef .tc main_arg2) := W1_of_ne m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 3).trans (((R2.dat2 (V2 m ρ) c).arrAt_in 3 rfl _).trans (R2.A_eq2 (V2 m ρ) c 3))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- The result buffer ends at what the third region's write-backs leave. -/
theorem W3_main_v2 (c : Dev nD) : W3 m ρ c (Proc.devRef .tc main_v2) = (R2.dat2 (V2 m ρ) c).arrAt 4 cfg2.N :=
  W3_arr m ρ c 4

/-! ## The proof data family and the thread state -/

abbrev adm : (p : Fin 3) → (pcfgs (F := F) p).Adm := fun p => (cfgs p).toPCfg_adm
/-- Every region's proof data, each at the contents its region is entered with. -/
def pdats : (p : Fin 3) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V1 m ρ) c
  | ⟨2, _⟩ => fun c => R2.dat2 (V2 m ρ) c
abbrev 𝒱₀ : Variants := Variants.none
abbrev L : GSem nD τ sig → Finset Unit := fun _ => ∅
abbrev lv : GSem nD τ sig → Unit → ℕ := fun _ _ => 0
/-- What rides beside the buffers through every region: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 as a segment: entered with every unscoped buffer at the contents before it, left with them at the contents
    after it; its arrays are split out of the unscoped buffers on entry and put back at what the pipeline leaves on exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.hin0 (V0 m ρ) c)
    unfold Pipeline.ΦA
    iintro ⟨Hp, -, Hr⟩
    isplitl [Hr]; · iexact Hr
    iexact Hp
  hout c := by
    rw [Pipeline.ownSems0_none]
    refine (R0.hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it; its arrays are split out of the unscoped buffers on entry and put back at what the pipeline leaves on exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the contents
    after it; its arrays are split out of the unscoped buffers on entry and put back at what the pipeline leaves on exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ), .region (reg2 m ρ) ]

set_option backward.isDefEq.respectTransparency.types false in
/-- From any memory with zero counters every weakly fair execution of the program terminates, nothing faulting, with
    the result buffer at what the third region's write-backs leave and every argument as launched. -/
theorem run : θ_run defs (onTc (τ := τ) (main (F := F))) ⟨m, fun _ => 0, ρ⟩ (fun r => ∀ c : Dev nD,
      r.2.mem ((c.tc : Thread nD τ).loc main_v2) = (R2.dat2 (V2 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          Prog.lift (.customCall (Pipeline.entry 1) ()),
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Run

end
-- ==== Proof.Payloads0.lean ====
/-
  The first kernel's three stored values, each read at one index on the extended reals.

  The first kernel keeps a [2048, 1] column of running column sums of the adjacency. At the first row block it
  stores the zero column; at every row block it adds, to entry m of the column, the sum over the block's 1024 rows
  of column m of the block; at the last row block it stores the reciprocal square root of each entry.
  Below are the layout readings these need that the library does not have in coordinate form (a vector cast to a
  column, a column broadcast along rows), the sum over the rows of a block read as a sum over `Fin 1024`, and then
  the three stored values at an index.
-/
import proofs.«171595_j82643760710010_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Column forms of a shape cast and a broadcast -/

/-- An `[a]` vector cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum over a block's rows -/

/-- The sum over axis 0 of a `[1024, 2048]` block, at lane `m`, is the sum over the 1024 rows of the block's entry
    in column `m`. -/
theorem rowsum_apply (src : FVec Ideal S1024x2048 .f32) (h : S1024x2048.Reduces [0] S2048) (hφ : FKind.Formats .f32)
    (hacc : (0x00000000#32 : BitVec 32) = 0x00000000#32) (m : Fin 2048) :
    multiReduction .add [0] S2048 src 0x00000000#32 h hφ hacc (ix1 m) = ∑ n : Fin 1024, src (ix2 n m) := by
  refine (Ideal.multiReduction_add_single src 0x00000000#32 h hφ hacc (ix1 m)).trans ?_
  refine Finset.sum_congr rfl fun n _ => congrArg src ?_
  funext a
  refine Fin.ext ?_
  match a with
  | ⟨0, _⟩ => rfl
  | ⟨1, _⟩ => rfl

/-! ## The three stored values at an index -/

/-- The value stored at the first row block is the zero column. -/
theorem pay1_apply (m : Fin 2048) : k0_pay1 (F := Ideal) (ix2 m (0 : Fin 1)) = 0 := by
  unfold k0_pay1
  refine (congrFun (shapeCast_self _ _) _).trans ?_
  exact Ideal.ofBits_zero_f32

/-- The value stored at every row block: entry `m` of the running column plus the sum of column `m` over the
    block's rows. -/
theorem pay2_apply (v3 : Vec Ideal S2048x1 .f32) (v4 : Vec Ideal S1x1024x2048 .f32) (m : Fin 2048) :
    k0_pay2 (F := Ideal) v3 v4 (ix2 m (0 : Fin 1)) = v3 (ix2 m 0) + ∑ n : Fin 1024, v4 (ix3 (0 : Fin 1) n m) := by
  unfold k0_pay2
  refine (congrFun (shapeCast_self _ _) _).trans ?_
  refine congrArg (v3 (ix2 m 0) + ·) ?_
  refine (shapeCast_a_a1_apply _ _ m 0).trans ?_
  refine (rowsum_apply _ _ _ _ m).trans ?_
  exact Finset.sum_congr rfl fun n _ => shapeCast_1ab_ab_apply v4 _ n m

/-- The value stored at the last row block: the reciprocal square root of each entry of the running column. -/
theorem pay3_apply (v15 : Vec Ideal S2048x1 .f32) (m : Fin 2048) :
    k0_pay3 (F := Ideal) v15 (ix3 (0 : Fin 1) m (0 : Fin 1)) = Ideal.rsqrt (v15 (ix2 m 0)) := by
  unfold k0_pay3
  exact shapeCast_ab_1ab_apply _ _ 0 m 0

end Cert.KernelIdeal.Pay

end
-- ==== Proof.Spec.lean ====
/-
  The two results as functions of the four argument arrays, element by element, on the extended reals.

  Write x : [8, 2048, 256] for the node features, a : [8, 2048, 2048] for the adjacency, w : [256, 256] for the
  weights and β : [256] for the bias. For a batch b:
    c(b, m)    = ∑ n, a(b, n, m)                      the sum of column m of the adjacency
    s(b, m, o) = ∑ f, x(b, m, f) · w(f, o)            the projected features
  The kernel scales by the reciprocal square root of the column sums, once on each side of the second product,
  the outer factor taken out of the sum:
    kernelOut(b, n, o) = (∑ m, a(b, n, m) · (s(b, m, o) · rsqrt c(b, m))) · rsqrt c(b, n) + β(o)
  The reference normalises the adjacency first, with the power −1/2, and multiplies afterwards:
    refOut(b, n, o)    = (∑ m, ((c(b, n) ^ (−½) · a(b, n, m)) · c(b, m) ^ (−½)) · s(b, m, o)) + β(o)
  When every entry is a real number and every column sum is positive, both scales are the positive real
  (√c)⁻¹ and the two results agree by distributivity in ℝ.
-/
import Idealize.ShloMosaic.PureOps.Ideal
import Idealize.ShloMosaic.Lib.ValueIdx

noncomputable section

open scoped BigOperators

namespace Cert.Spec

open Idealize.ShloMosaic Idealize.ShloMosaic.ValueIdx

/-- The sum of column `m` of batch `b` of the adjacency. -/
def colsum (a : (⟨3, ![8, 2048, 2048]⟩ : Shape).Idx → EReal) (b : Fin 8) (m : Fin 2048) : EReal :=
  ∑ n : Fin 2048, a (ix3 b n m)

/-- The projected features: row `m` of batch `b` of `x` against column `o` of `w`. -/
def support (x : (⟨3, ![8, 2048, 256]⟩ : Shape).Idx → EReal) (w : (⟨2, ![256, 256]⟩ : Shape).Idx → EReal)
    (b : Fin 8) (m : Fin 2048) (o : Fin 256) : EReal :=
  ∑ f : Fin 256, x (ix3 b m f) * w (ix2 f o)

/-- The kernel's scale: the reciprocal square root of a column sum. -/
def degK (a : (⟨3, ![8, 2048, 2048]⟩ : Shape).Idx → EReal) (b : Fin 8) (m : Fin 2048) : EReal :=
  Ideal.rsqrt (colsum a b m)

/-- The reference's scale: a column sum to the power −1/2. -/
def degR (a : (⟨3, ![8, 2048, 2048]⟩ : Shape).Idx → EReal) (b : Fin 8) (m : Fin 2048) : EReal :=
  Ideal.pow (colsum a b m) (Ideal.ofBits .f32 0xBF000000#32)

/-- The kernel's result at (b, n, o). -/
def kernelOut (x : (⟨3, ![8, 2048, 256]⟩ : Shape).Idx → EReal) (a : (⟨3, ![8, 2048, 2048]⟩ : Shape).Idx → EReal)
    (w : (⟨2, ![256, 256]⟩ : Shape).Idx → EReal) (β : (⟨1, ![256]⟩ : Shape).Idx → EReal)
    (b : Fin 8) (n : Fin 2048) (o : Fin 256) : EReal :=
  (∑ m : Fin 2048, a (ix3 b n m) * (support x w b m o * degK a b m)) * degK a b n + β (ix1 o)

/-- The reference's result at (b, n, o). -/
def refOut (x : (⟨3, ![8, 2048, 256]⟩ : Shape).Idx → EReal) (a : (⟨3, ![8, 2048, 2048]⟩ : Shape).Idx → EReal)
    (w : (⟨2, ![256, 256]⟩ : Shape).Idx → EReal) (β : (⟨1, ![256]⟩ : Shape).Idx → EReal)
    (b : Fin 8) (n : Fin 2048) (o : Fin 256) : EReal :=
  (∑ m : Fin 2048, ((degR a b n * a (ix3 b n m)) * degR a b m) * support x w b m o) + β (ix1 o)

end Cert.Spec

end
-- ==== Proof.KI.Value0.lean ====
/-
  What region 0 leaves in its result array: entry (b, n, 0) is the reciprocal square root of the sum of column n
  of batch b of the adjacency. The grid visits a batch's two row tiles in turn; the scratch column holds after the
  first tile the sums of rows 0 … 1023 and after the second those plus the sums of rows 1024 … 2047, which is the
  whole column's sum; the second tile's point stores the reciprocal square roots and is the one point whose block
  is written back, and those blocks, one per batch, tile the array.
-/
import proofs.«171595_j82643760710010_1_alg».proof.Proof.KI.Region0
import proofs.«171595_j82643760710010_1_alg».proof.Proof.Payloads0
import proofs.«171595_j82643760710010_1_alg».proof.Proof.Spec
import Idealize.ShloMosaic.Lib.Pipeline.Value
import Idealize.ShloMosaic.Lib.ValueIdx

set_option maxRecDepth 16384

noncomputable section

namespace Cert.KernelIdeal.Val0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.R0 Cert.KernelIdeal.Pay Idealize.ShloMosaic.ValueIdx
open scoped BigOperators

/-! ## What the runs' stores amount to -/

theorem zeros2 : (![0, 0] : Fin 2 → Nat) = fun _ => 0 := by
  funext a; match a with | ⟨0, _⟩ => rfl | ⟨1, _⟩ => rfl
theorem zeros3 : (![0, 0, 0] : Fin 3 → Nat) = fun _ => 0 := by
  funext a; match a with | ⟨0, _⟩ => rfl | ⟨1, _⟩ => rfl | ⟨2, _⟩ => rfl

section
variable (V : (c : Dev nD) → (b : Ref sig .tc) → Buf (Elt F) ((c : Thread nD τ).loc b))

/-- After a first tile the scratch column holds the zero column plus the tile's column sums. -/
theorem accFirstAt_eq (c : Dev nD) (t : Fin cfg0.N) (h : t.val % 2 = 0) :
    accFirstAt V c t h = k0_pay2 (k0_pay1 (F := F)) (iblk0 V c 0 t) := by
  unfold accFirstAt
  rw [View.read_writes_eq_canon _ _ _ (scoverFirst c _ _ _ _ _ _ _ _ _ _)]
  unfold runFirst
  dsimp only
  sl_unfold_words
  rw [View.canon_cons_unit_zero zeros2, View.readCov_unit_zero _ zeros2]
  simp only [View.readAt_eq_ld, Memref.IsWhole.read_unread, View.ld_unit_zero (S := S1x1024x2048) zeros3]

/-- After a last tile the scratch column holds what the first tile left plus this tile's column sums. -/
theorem accLastAt_eq (c : Dev nD) (t : Fin cfg0.N) (h : ¬t.val % 2 = 0) (xs0 : Vec F S2048x1 .f32) :
    accLastAt V c t h xs0 = k0_pay2 xs0 (iblk0 V c 0 t) := by
  unfold accLastAt
  rw [View.read_writes_eq_canon _ _ _ (scoverLast c _ _ _ _ _ _ _ _ _ _ _)]
  unfold runLast
  dsimp only
  sl_unfold_words
  rw [View.canon_unit_zero zeros2]
  simp only [View.readAt_eq_ld, Memref.IsWhole.read_unread, View.ld_unit_zero (S := S2048x1) zeros2, View.ld_unit_zero (S := S1x1024x2048) zeros3]
  exact congrArg (fun z => k0_pay2 z (iblk0 V c 0 t)) (Memref.IsWhole.read_unread (m := scM0) (Memref.isWhole_whole _) xs0)

/-- and the result window the reciprocal square roots of that column. -/
theorem outLastAt_eq (c : Dev nD) (t : Fin cfg0.N) (h : ¬t.val % 2 = 0) (xs0 : Vec F S2048x1 .f32) :
    outLastAt V c t h xs0 = k0_pay3 (k0_pay2 xs0 (iblk0 V c 0 t)) := by
  unfold outLastAt
  rw [View.read_writes_eq_canon _ _ _ (coverLast c _ _ _ _ _ _ _ _ _ _ _)]
  unfold runLast
  dsimp only
  sl_unfold_words
  rw [View.canon_unit_zero zeros3, View.readCov_unit_zero _ zeros2]
  simp only [View.readAt_eq_ld, Memref.IsWhole.read_unread, View.ld_unit_zero (S := S2048x1) zeros2, View.ld_unit_zero (S := S1x1024x2048) zeros3]
  exact congrArg (fun z => k0_pay3 (k0_pay2 z (iblk0 V c 0 t))) (Memref.IsWhole.read_unread (m := scM0) (Memref.isWhole_whole _) xs0)

/-- What an even point leaves in the scratch, read off the recursion. -/
theorem scratch_after_first (c : Dev nD) (t : Fin cfg0.N) (h : t.val % 2 = 0) :
    (outsAt0 V c t.val t.isLt).2 = accFirstAt V c t h := by
  rw [outsAt0_first V c t h]

theorem prev_scratch (c : Dev nD) (n : ℕ) (hn : n < cfg0.N) (h : n % 2 = 0) :
    (outsAt0 V c n hn).2 = accFirstAt V c ⟨n, hn⟩ h :=
  scratch_after_first V c ⟨n, hn⟩ h
end

/-! ## At the exact extended reals -/

section
variable (V : (c : Dev nD) → (b : Ref sig .tc) → Buf (Elt Ideal) ((c : Thread nD τ).loc b)) (c : Dev nD)

/-- The adjacency window's block index at point `t`: batch `t / 2`, row tile `t % 2`. -/
theorem idx0_0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
/-- The result window's block index at point `t`: batch `t / 2`. -/
theorem idx0_1 : ∀ t : Fin cfg0.N, win0_1.index t (0 : Fin 3) = t.val / 2 ∧ win0_1.index t (1 : Fin 3) = 0 ∧ win0_1.index t (2 : Fin 3) = 0 :=
  (by decide +kernel : ∀ t : Fin grid0.N, _)

/-- Row `r` of the adjacency tile at point `t` is row `1024 · (t % 2) + r` of batch `t / 2`. -/
theorem iblk0_apply (t : Fin cfg0.N) (r : Fin 1024) (n : Fin 2048) (b : Fin 8) (k : Fin 2048) (hb : b.val = t.val / 2) (hk : k.val = 1024 * (t.val % 2) + r.val) :
    (iblk0 V c 0 t : Vec Ideal S1x1024x2048 .f32) (ix3 (0 : Fin 1) r n) = (V c main_arg1 : S8x2048x2048.Idx → EReal) (ix3 b k n) := by
  unfold iblk0
  rw [View.read_apply]
  show V c main_arg1 _ = V c main_arg1 _
  congr 1
  funext a
  apply Fin.ext
  obtain ⟨e0, e1, e2⟩ := idx0_0 t
  match a with
  | ⟨0, _⟩ => show win0_0.index t (0 : Fin 3) * 1 + 1 * 0 = b.val; rw [e0, hb]; omega
  | ⟨1, _⟩ => show win0_0.index t (1 : Fin 3) * 1024 + 1 * r.val = k.val; rw [e1, hk]; omega
  | ⟨2, _⟩ => show win0_0.index t (2 : Fin 3) * 2048 + 1 * n.val = n.val; rw [e2]; omega

/-- The sum of rows 0 … 1023 of column `n` of batch `b`, -/
def upperSum (a : S8x2048x2048.Idx → EReal) (b : Fin 8) (n : Fin 2048) : EReal :=
  ∑ r : Fin 1024, a (ix3 b (Fin.castAdd 1024 r) n)
/-- and of rows 1024 … 2047. -/
def lowerSum (a : S8x2048x2048.Idx → EReal) (b : Fin 8) (n : Fin 2048) : EReal :=
  ∑ r : Fin 1024, a (ix3 b (Fin.natAdd 1024 r) n)
/-- Together they are the column's sum. -/
theorem upper_add_lower (a : S8x2048x2048.Idx → EReal) (b : Fin 8) (n : Fin 2048) :
    upperSum a b n + lowerSum a b n = Cert.Spec.colsum a b n :=
  (Fin.sum_univ_add (fun k : Fin (1024 + 1024) => a (ix3 b k n))).symm

/-- A tile's column sum, row by row. -/
theorem tile_sum (v : Vec Ideal S1x1024x2048 .f32) (a : S8x2048x2048.Idx → EReal) (b : Fin 8) (n : Fin 2048)
    (k : Fin 1024 → Fin 2048) (h : ∀ r : Fin 1024, v (ix3 (0 : Fin 1) r n) = a (ix3 b (k r) n)) :
    ∑ r : Fin 1024, v (ix3 (0 : Fin 1) r n) = ∑ r : Fin 1024, a (ix3 b (k r) n) :=
  Finset.sum_congr rfl fun r _ => h r

/-- After a batch's first tile the scratch column holds the sums of rows 0 … 1023. -/
theorem acc_first (s : Fin cfg0.N) (hs : s.val % 2 = 0) (b : Fin 8) (hb : b.val = s.val / 2) (n : Fin 2048) :
    (accFirstAt V c s hs : Vec Ideal S2048x1 .f32) (ix2 n (0 : Fin 1)) = upperSum (V c main_arg1) b n := by
  rw [accFirstAt_eq, pay2_apply, pay1_apply, zero_add]
  exact tile_sum (iblk0 V c 0 s) (V c main_arg1) b n (fun r => Fin.castAdd 1024 r)
    (fun r => iblk0_apply V c s r n b (Fin.castAdd 1024 r) hb (by rw [Fin.coe_castAdd, hs]; omega))

/-- After its second tile the result window's buffer holds the reciprocal square roots of the whole columns' sums. -/
theorem out_last (t : Fin cfg0.N) (ht : ¬t.val % 2 = 0) (b : Fin 8) (hb : b.val = t.val / 2) (n : Fin 2048) :
    ((outsAt0 V c t.val t.isLt).1 : Vec Ideal S1x2048x1 .f32) (ix3 (0 : Fin 1) n (0 : Fin 1)) = Cert.Spec.degK (V c main_arg1) b n := by
  have hs : (t.val - 1) % 2 = 0 := by omega
  have hlow := tile_sum (iblk0 V c 0 t) (V c main_arg1) b n (fun r => Fin.natAdd 1024 r)
    (fun r => iblk0_apply V c t r n b (Fin.natAdd 1024 r) hb (by rw [Fin.coe_natAdd]; omega))
  rw [outsAt0_last V c t ht]
  dsimp only
  rw [outLastAt_eq, pay3_apply, pay2_apply, hlow, prev_scratch V c (t.val - 1) _ hs,
    acc_first V c ⟨t.val - 1, Nat.lt_of_le_of_lt (Nat.sub_le _ _) t.isLt⟩ hs b (by show b.val = (t.val - 1) / 2; omega) n]
  exact congrArg Ideal.rsqrt (upper_add_lower (V c main_arg1) b n)

/-- The same at any index of the block (its first and last coordinates range over one value). -/
theorem out_last_at (t : Fin cfg0.N) (ht : ¬t.val % 2 = 0) (b : Fin 8) (hb : b.val = t.val / 2) (y : S1x2048x1.Idx) :
    ((outsAt0 V c t.val t.isLt).1 : Vec Ideal S1x2048x1 .f32) y = Cert.Spec.degK (V c main_arg1) b (y 1) := by
  obtain ⟨z, n, z', rfl⟩ : ∃ (z : Fin 1) (n : Fin 2048) (z' : Fin 1), y = ix3 z n z' := ⟨y 0, y 1, y 2, eq_ix3 y⟩
  obtain rfl : z = 0 := Subsingleton.elim _ _
  obtain rfl : z' = 0 := Subsingleton.elim _ _
  exact out_last V c t ht b hb n

/-- The array of reciprocal square roots of the column sums. -/
def degArr (a : S8x2048x2048.Idx → EReal) : S8x2048x1.Idx → EReal := fun i => Cert.Spec.degK a (i 0) (i 1)

/-- What a second tile's point writes back is its block of that array. -/
theorem flushed_eq0 (t : Fin cfg0.N) (hf : (cfg0.win 1).flush t = true) :
    (R0.dat0 V c).flushed 1 t = ((cfg0.win 1).blk t).view.read (Elt Ideal) (degArr (V c main_arg1)) := by
  have hodd : t.val % 2 = 1 := (flush0_1 t).mp hf
  have ht : ¬t.val % 2 = 0 := by omega
  have hN : t.val < 16 := lt_of_lt_of_eq t.isLt (show cfg0.N = 16 from N_0)
  obtain ⟨e0, e1, e2⟩ := idx0_1 t
  show (cfg0.win 1).cut (grid0.coords t) ((R0.dat0 V c).after 1 t) = _
  rw [after0_1]
  funext j
  have hj0 : (j 0).val < 1 := (j 0).isLt
  show ((outsAt0 V c t.val t.isLt).1 : Vec Ideal S1x2048x1 .f32) j
    = Cert.Spec.degK (V c main_arg1) ((((cfg0.win 1).blk t).view.emb j) 0) ((((cfg0.win 1).blk t).view.emb j) 1)
  have q0 : ((((cfg0.win 1).blk t).view.emb j) 0 : Fin 8) = (⟨t.val / 2, by omega⟩ : Fin 8) :=
    Fin.ext (by show win0_1.index t (0 : Fin 3) * 1 + 1 * (j 0).val = t.val / 2; rw [e0]; omega)
  have q1 : ((((cfg0.win 1).blk t).view.emb j) 1 : Fin 2048) = (j 1 : Fin 2048) :=
    Fin.ext (by show win0_1.index t (1 : Fin 3) * 2048 + 1 * (j 1).val = (j 1).val; rw [e1]; omega)
  rw [q0, q1]
  exact out_last_at V c t ht ⟨t.val / 2, by omega⟩ rfl j

/-- An index is in point `t`'s block iff each coordinate is in the block's range on its axis. -/
theorem mem_blk0 (t : Fin cfg0.N) (i : S8x2048x1.Idx) :
    i ∈ ((cfg0.win 1).blk t).view.set ↔ ∀ a : Fin 3, win0_1.index t a * S1x2048x1.size a ≤ (i a).val ∧ (i a).val < win0_1.index t a * S1x2048x1.size a + S1x2048x1.size a := by
  show i ∈ ((View.whole main_v0).slice (win0_1.rect t)).set ↔ _
  rw [View.set_slice_whole, Rect.mem_set_unit]
  exact Iff.rfl

/-- Batch `b`'s entries lie in the block the second tile of batch `b` writes back. -/
theorem cover0 (i : S8x2048x1.Idx) : ∃ t : Fin cfg0.N, (cfg0.win 1).flush t = true ∧ i ∈ ((cfg0.win 1).blk t).view.set := by
  have h0 : (i 0).val < 8 := (i 0).isLt
  have h1 : (i 1).val < 2048 := (i 1).isLt
  have h2 : (i 2).val < 1 := (i 2).isLt
  have hlt : 2 * (i 0).val + 1 < cfg0.N := by rw [show cfg0.N = 16 from N_0]; omega
  refine ⟨⟨2 * (i 0).val + 1, hlt⟩, (flush0_1 _).mpr (by show (2 * (i 0).val + 1) % 2 = 1; omega), ?_⟩
  rw [mem_blk0]
  obtain ⟨e0, e1, e2⟩ := idx0_1 ⟨2 * (i 0).val + 1, hlt⟩
  intro a
  match a with
  | ⟨0, _⟩ => show win0_1.index ⟨2 * (i 0).val + 1, hlt⟩ (0 : Fin 3) * 1 ≤ (i 0).val ∧ (i 0).val < win0_1.index ⟨2 * (i 0).val + 1, hlt⟩ (0 : Fin 3) * 1 + 1
              rw [e0]; show (2 * (i 0).val + 1) / 2 * 1 ≤ (i 0).val ∧ (i 0).val < (2 * (i 0).val + 1) / 2 * 1 + 1; omega
  | ⟨1, _⟩ => show win0_1.index ⟨2 * (i 0).val + 1, hlt⟩ (1 : Fin 3) * 2048 ≤ (i 1).val ∧ (i 1).val < win0_1.index ⟨2 * (i 0).val + 1, hlt⟩ (1 : Fin 3) * 2048 + 2048
              rw [e1]; omega
  | ⟨2, _⟩ => show win0_1.index ⟨2 * (i 0).val + 1, hlt⟩ (2 : Fin 3) * 1 ≤ (i 2).val ∧ (i 2).val < win0_1.index ⟨2 * (i 0).val + 1, hlt⟩ (2 : Fin 3) * 1 + 1
              rw [e2]; omega

/-- Region 0's result array after the region. -/
theorem final0 (b : Fin 8) (n : Fin 2048) :
    ((R0.dat0 V c).arrAt 1 cfg0.N : S8x2048x1.Idx → EReal) (ix3 b n (0 : Fin 1)) = Cert.Spec.degK (V c main_arg1) b n := by
  rw [(R0.dat0 V c).arrAt_eq_of_cover 1 (degArr (V c main_arg1)) (flushed_eq0 V c) (cover0)]
  rfl

end

end Cert.KernelIdeal.Val0

end
-- ==== Proof.Payloads1.lean ====
/-
  The second kernel's stored value read at one index on the extended reals.

  The second kernel multiplies a [2048, 256] block of node features by the [256, 256] weights and scales row r of
  the product by entry r of a [2048, 1] column. Both operands are narrowed on the way into the product, which is the
  identity on the extended reals, and the product accumulates into zero, so entry (r, o) of the product is the sum
  over the 256 features f of feature f of row r times weight (f, o).
  Below: the product's operand indices by coordinates, the product at an index as a sum over `Fin 256`, the column
  broadcast along the rows at an index, and the stored value at an index.
-/
import proofs.«171595_j82643760710010_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The product's operand indices -/

/-- The left operand's row is the result's row. -/
theorem k1_lhs_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl

/-- The left operand's column is the contracted coordinate. -/
theorem k1_lhs_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q

/-- The right operand's row is the contracted coordinate. -/
theorem k1_rhs_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q

/-- The right operand's column is the result's column. -/
theorem k1_rhs_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-! ## The product at an index -/

/-- A [2048, 256] by [256, 256] product accumulated into zero is, at (p, o), the sum over f of the left operand at
    (p, f) times the right at (f, o). -/
theorem k1_matmul_apply (l : FVec Ideal S2048x256 .bf16) (w : FVec Ideal S256x256 .bf16) (p : Fin 2048) (o : Fin 256) :
    matmul dot_S2048x256_S256x256_S2048x256_1_0_0_1_n_n none l w (constant (F := Ideal) S2048x256 .f32 0x00000000#32) (ix2 p o)
      = ∑ f : Fin 256, l (ix2 p f) * w (ix2 f o) := by
  refine (Ideal.matmul_constant_zero_apply dot_S2048x256_S256x256_S2048x256_1_0_0_1_n_n none l w (ix2 p o)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p o) ((contrEquiv1 dot_S2048x256_S256x256_S2048x256_1_0_0_1_n_n 256 rfl rfl).symm k) = ix2 p k :=
    funext fun a => Fin.ext (by
      match a with
      | ⟨0, _⟩ => exact k1_lhs_0 _ _
      | ⟨1, _⟩ => exact (k1_lhs_1 _ _).trans hk)
  have er : dot_S2048x256_S256x256_S2048x256_1_0_0_1_n_n.rhsIdx (ix2 p o) ((contrEquiv1 dot_S2048x256_S256x256_S2048x256_1_0_0_1_n_n 256 rfl rfl).symm k) = ix2 k o :=
    funext fun a => Fin.ext (by
      match a with
      | ⟨0, _⟩ => exact (k1_rhs_0 _ _).trans hk
      | ⟨1, _⟩ => exact k1_rhs_1 _ _)
  rw [el, er]

/-! ## The column along the rows -/

/-- A [2048, 1] column broadcast to [2048, 256] reads, at (p, c), the column at row p. -/
theorem k1_column_apply (v : FVec Ideal S2048x1 .f32) (h : S2048x1.Broadcasts S2048x256) (p : Fin 2048) (c : Fin 256) :
    broadcastTo S2048x256 v h (ix2 p c) = v (ix2 p (0 : Fin 1)) := by
  refine broadcastTo_apply v h (ix2 p c) (ix2 p (0 : Fin 1)) fun ax => ?_
  match ax with
  | ⟨0, _⟩ =>
    show p.val = if (2048 : Nat) = 1 then 0 else p.val
    rw [if_neg (by decide)]
  | ⟨1, _⟩ => rfl

/-! ## The stored value at an index -/

/-- Entry (r, o) of the stored block: the projected features of row r at o, times entry r of the column. -/
theorem k1_apply (v0 : Vec Ideal S1x2048x256 .f32) (v3 : Vec Ideal S256x256 .f32) (v6 : Vec Ideal S1x2048x1 .f32)
    (r : Fin 2048) (o : Fin 256) :
    k1_pay1 (F := Ideal) v0 v3 v6 (ix3 (0 : Fin 1) r o)
      = (∑ f : Fin 256, v0 (ix3 (0 : Fin 1) r f) * v3 (ix2 f o)) * v6 (ix3 (0 : Fin 1) r (0 : Fin 1)) := by
  unfold k1_pay1
  refine (shapeCast_ab_1ab_apply _ _ 0 r o).trans ?_
  refine (mulf_apply _ _ _).trans ?_
  refine congrArg₂ (· * ·) ?_ ?_
  · refine (k1_matmul_apply _ _ r o).trans ?_
    refine Finset.sum_congr rfl fun f _ => ?_
    refine congrArg₂ (· * ·) ?_ rfl
    refine (truncf_apply (φ := .f32) (ψ := .bf16) _ _ _).trans ?_
    exact shapeCast_1ab_ab_apply v0 _ r f
  · refine (k1_column_apply _ _ r o).trans ?_
    exact shapeCast_1ab_ab_apply v6 _ r 0

end Cert.KernelIdeal.Pay

end
-- ==== Proof.KI.Value1.lean ====
/- What the second region's output array holds after the region, index by index, on the extended reals, as a
   function of the contents V the region is entered with.

   The region's grid is the 8 batches. At batch b the output window's block is rows (b, ·, ·) of the output array; the
   features' and the scaling column's blocks are rows (b, ·, ·) of theirs; the weight's block is the whole weight. The
   body's payload at (0, r, o) is (∑ f, x(0, r, f) · w(f, o)) · d(0, r, 0) of the three blocks. So the point at batch b
   writes back rows (b, ·, ·) of the one function

     cell(b, n, o) = (∑ f, X(b, n, f) · W(f, o)) · D(b, n, 0)

   of the three arrays, the blocks of the 8 points fill the output array, and the array ends holding that function. -/
import proofs.«171595_j82643760710010_1_alg».proof.Proof.KI.Region1
import proofs.«171595_j82643760710010_1_alg».proof.Proof.Spec
import proofs.«171595_j82643760710010_1_alg».proof.Proof.Payloads1
import Idealize.ShloMosaic.Lib.Pipeline.Value
import Idealize.ShloMosaic.Lib.ValueIdx

noncomputable section

open scoped BigOperators

namespace Cert.KernelIdeal.Val1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The function the output array ends holding -/

/-- Row n of batch b of the features against column o of the weight, scaled by entry (b, n) of the column. -/
def cell (X : S8x2048x256.Idx → EReal) (W : S256x256.Idx → EReal) (Dc : S8x2048x1.Idx → EReal)
    (b : Fin 8) (n : Fin 2048) (o : Fin 256) : EReal :=
  (∑ f : Fin 256, X (ix3 b n f) * W (ix2 f o)) * Dc (ix3 b n (0 : Fin 1))

/-- The same as an array. -/
def whole (X : S8x2048x256.Idx → EReal) (W : S256x256.Idx → EReal) (Dc : S8x2048x1.Idx → EReal) : S8x2048x256.Idx → EReal :=
  fun i => cell X W Dc (i 0) (i 1) (i 2)

/-- The array at an index whose coordinates are b, n, o. -/
theorem whole_at (X : S8x2048x256.Idx → EReal) (W : S256x256.Idx → EReal) (Dc : S8x2048x1.Idx → EReal)
    (i : S8x2048x256.Idx) (b : Fin 8) (n : Fin 2048) (o : Fin 256)
    (h0 : (i 0).val = b.val) (h1 : (i 1).val = n.val) (h2 : (i 2).val = o.val) : whole X W Dc i = cell X W Dc b n o := by
  have e : i = ix3 b n o := by
    funext a; apply Fin.ext
    match a with
    | ⟨0, _⟩ => exact h0
    | ⟨1, _⟩ => exact h1
    | ⟨2, _⟩ => exact h2
  subst e; rfl

/-! ## The index maps over the grid -/

/-- At point t the features', the column's and the output's blocks are at block index (t, 0, 0) and the weight's
    at (0, 0): decided over the 8 points. -/
theorem index_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- Every batch is some point's. -/
theorem batch_onto : ∀ q : Fin 8, ∃ t : Fin cfg1.N, t.val = q.val :=
  (by decide +kernel : ∀ q : Fin 8, ∃ t : Fin grid1.N, t.val = q.val)

/-! ## Each input block as rows of its array -/

/-- The features' block at point t is rows (t, ·, ·) of the features. -/
theorem features_block (c : Dev nD) (t : Fin cfg1.N) (y : S1x2048x256.Idx) (k : S8x2048x256.Idx)
    (hk0 : (k 0).val = t.val) (hk1 : (k 1).val = (y 1).val) (hk2 : (k 2).val = (y 2).val) :
    (R1.iblk1 V c 0 t : Vec Ideal S1x2048x256 .f32) y = (V c main_arg0 : S8x2048x256.Idx → EReal) k := by
  obtain ⟨e0, e1, e2, -⟩ := index_facts t
  have hy0 : (y 0).val < 1 := (y 0).isLt
  show V c main_arg0 (((cfg1.win 0).blk t).view.emb y) = V c main_arg0 k
  refine congrArg _ ?_
  funext a; apply Fin.ext
  match a with
  | ⟨0, _⟩ => show win1_0.index t (0 : Fin 3) * 1 + 1 * (y 0).val = (k 0).val; omega
  | ⟨1, _⟩ => show win1_0.index t (1 : Fin 3) * 2048 + 1 * (y 1).val = (k 1).val; omega
  | ⟨2, _⟩ => show win1_0.index t (2 : Fin 3) * 256 + 1 * (y 2).val = (k 2).val; omega

/-- The weight's block at any point is the weight. -/
theorem weight_block (c : Dev nD) (t : Fin cfg1.N) (y : S256x256.Idx) :
    (R1.iblk1 V c 1 t : Vec Ideal S256x256 .f32) y = (V c main_arg2 : S256x256.Idx → EReal) y := by
  obtain ⟨-, -, -, e0, e1, -⟩ := index_facts t
  show V c main_arg2 (((cfg1.win 1).blk t).view.emb y) = V c main_arg2 y
  refine congrArg _ ?_
  funext a; apply Fin.ext
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- The scaling column's block at point t is rows (t, ·, ·) of the column. -/
theorem column_block (c : Dev nD) (t : Fin cfg1.N) (y : S1x2048x1.Idx) (k : S8x2048x1.Idx)
    (hk0 : (k 0).val = t.val) (hk1 : (k 1).val = (y 1).val) (hk2 : (k 2).val = (y 2).val) :
    (R1.iblk1 V c 2 t : Vec Ideal S1x2048x1 .f32) y = (V c main_v0 : S8x2048x1.Idx → EReal) k := by
  obtain ⟨-, -, -, -, -, e0, e1, e2, -⟩ := index_facts t
  have hy0 : (y 0).val < 1 := (y 0).isLt
  show V c main_v0 (((cfg1.win 2).blk t).view.emb y) = V c main_v0 k
  refine congrArg _ ?_
  funext a; apply Fin.ext
  match a with
  | ⟨0, _⟩ => show win1_2.index t (0 : Fin 3) * 1 + 1 * (y 0).val = (k 0).val; omega
  | ⟨1, _⟩ => show win1_2.index t (1 : Fin 3) * 2048 + 1 * (y 1).val = (k 1).val; omega
  | ⟨2, _⟩ => show win1_2.index t (2 : Fin 3) * 1 + 1 * (y 2).val = (k 2).val; omega

/-- An element of the output's block at point t sits in the output array at (t, its row, its column). -/
theorem out_coords (t : Fin cfg1.N) (y : S1x2048x256.Idx) :
    ((((cfg1.win 3).blk t).view.emb y) 0).val = t.val
    ∧ ((((cfg1.win 3).blk t).view.emb y) 1).val = (y 1).val
    ∧ ((((cfg1.win 3).blk t).view.emb y) 2).val = (y 2).val := by
  obtain ⟨-, -, -, -, -, -, -, -, e0, e1, e2⟩ := index_facts t
  have hy0 : (y 0).val < 1 := (y 0).isLt
  refine ⟨?_, ?_, ?_⟩
  · show win1_3.index t (0 : Fin 3) * 1 + 1 * (y 0).val = t.val; omega
  · show win1_3.index t (1 : Fin 3) * 2048 + 1 * (y 1).val = (y 1).val; omega
  · show win1_3.index t (2 : Fin 3) * 256 + 1 * (y 2).val = (y 2).val; omega

/-! ## What a point writes back -/

/-- The payload of the three blocks at point t, at element (0, r, o) of the block, is the function at the element's
    place in the output array. -/
theorem point_value (c : Dev nD) (t : Fin cfg1.N) (r : Fin 2048) (o : Fin 256) :
    k1_pay1 (F := Ideal) (R1.iblk1 V c 0 t) (R1.iblk1 V c 1 t) (R1.iblk1 V c 2 t) (ix3 (0 : Fin 1) r o)
      = whole (V c main_arg0) (V c main_arg2) (V c main_v0) (((cfg1.win 3).blk t).view.emb (ix3 (0 : Fin 1) r o)) := by
  have hN : cfg1.N = 8 := N_1
  obtain ⟨p0, p1, p2⟩ := out_coords t (ix3 (0 : Fin 1) r o)
  refine (Pay.k1_apply (R1.iblk1 V c 0 t) (R1.iblk1 V c 1 t) (R1.iblk1 V c 2 t) r o).trans ?_
  refine Eq.trans ?_ (whole_at _ _ _ _ ⟨t.val, by have := t.isLt; omega⟩ r o p0 p1 p2).symm
  unfold cell
  refine congrArg₂ (· * ·) (Finset.sum_congr rfl fun f _ => congrArg₂ (· * ·) ?_ ?_) ?_
  · exact features_block V c t (ix3 (0 : Fin 1) r f) (ix3 _ r f) rfl rfl rfl
  · exact weight_block V c t (ix2 f o)
  · exact column_block V c t (ix3 (0 : Fin 1) r (0 : Fin 1)) (ix3 _ r (0 : Fin 1)) rfl rfl rfl

/-- What point t writes back is block t of the function of the three arrays as the region finds them. -/
theorem flushed_eq (c : Dev nD) (t : Fin cfg1.N) :
    (R1.dat1 V c).flushed 3 t
      = ((cfg1.win 3).blk t).view.read (Elt Ideal) (whole (V c main_arg0) (V c main_arg2) (V c main_v0)) := by
  show (cfg1.win 3).cut (grid1.coords t) ((R1.dat1 V c).after 3 t) = _
  rw [R1.after1_out]
  unfold R1.out1
  rw [View.canon_unit_zero zeros3]
  simp only [View.ld_unit_zero (S := S1x2048x256) zeros3, View.ld_unit_zero (S := S256x256) zeros2,
    View.ld_unit_zero (S := S1x2048x1) zeros3]
  funext y
  obtain ⟨a, r, o, rfl⟩ : ∃ (a : Fin 1) (r : Fin 2048) (o : Fin 256), y = ix3 a r o := ⟨y 0, y 1, y 2, eq_ix3 y⟩
  obtain rfl : a = 0 := Subsingleton.elim _ _
  exact point_value V c t r o

/-! ## The blocks fill the array -/

/-- An index of the output array is in point t's block iff each coordinate is in the block's range on its axis. -/
theorem mem_blk (t : Fin cfg1.N) (i : S8x2048x256.Idx) :
    i ∈ ((cfg1.win 3).blk t).view.set ↔ ∀ a : Fin 3, win1_3.index t a * S1x2048x256.size a ≤ (i a).val
      ∧ (i a).val < win1_3.index t a * S1x2048x256.size a + S1x2048x256.size a := by
  show i ∈ ((View.whole main_v1).slice (win1_3.rect t)).set ↔ _
  rw [View.set_slice_whole, Rect.mem_set_unit]
  exact Iff.rfl

/-- Every index of the output array is in the block of the point at its batch, and every point writes back. -/
theorem covered (i : S8x2048x256.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 256 := (i 2).isLt
  obtain ⟨t, ht⟩ := batch_onto ⟨(i 0).val, hi0⟩
  have ht' : t.val = (i 0).val := ht
  obtain ⟨-, -, -, -, -, -, -, -, e0, e1, e2⟩ := index_facts t
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 2048 ≤ (i 1).val ∧ (i 1).val < win1_3.index t (1 : Fin 3) * 2048 + 2048; omega
  | ⟨2, _⟩ => show win1_3.index t (2 : Fin 3) * 256 ≤ (i 2).val ∧ (i 2).val < win1_3.index t (2 : Fin 3) * 256 + 256; omega

/-! ## The output array after the region -/

/-- The output array ends holding the function of the three arrays. -/
theorem array_eq (c : Dev nD) :
    (R1.dat1 V c).arrAt 3 cfg1.N = whole (V c main_arg0) (V c main_arg2) (V c main_v0) :=
  (R1.dat1 V c).arrAt_eq_of_cover 3 (whole (V c main_arg0) (V c main_arg2) (V c main_v0))
    (fun t _ => flushed_eq V c t) covered

/-- At (b, n, o) it holds the projected features at (b, n, o) times entry (b, n) of the scaling column. -/
theorem final1 (c : Dev nD) (D : Fin 8 → Fin 2048 → EReal) (hD : ∀ b n, V c main_v0 (ix3 b n (0 : Fin 1)) = D b n)
    (b : Fin 8) (n : Fin 2048) (o : Fin 256) :
    (R1.dat1 V c).arrAt 3 cfg1.N (ix3 b n o)
      = Cert.Spec.support (V c main_arg0) (V c main_arg2) b n o * D b n := by
  rw [array_eq]
  show cell (V c main_arg0) (V c main_arg2) (V c main_v0) b n o = _
  unfold cell Cert.Spec.support
  rw [hD]

end Cert.KernelIdeal.Val1

end
-- ==== Proof.Payloads2.lean ====
/-
  The third kernel's stored value read at one index on the extended reals.

  The third kernel multiplies a [1024, 2048] block of rows of the adjacency by the [2048, 256] scaled features,
  scales row r of the product by entry r of a [1024, 1] column, and adds the bias vector along every row. Both
  operands are narrowed on the way into the product, which is the identity on the extended reals, and the product
  accumulates into zero, so entry (r, o) of the product is the sum over the 2048 nodes m of the adjacency at (r, m)
  times the scaled features at (m, o).
  Below: the product's operand indices by coordinates, the product at an index as a sum over `Fin 2048`, the column
  broadcast along the rows at an index, and the stored value at an index.
-/
import proofs.«171595_j82643760710010_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The product's operand indices -/

/-- The left operand's row is the result's row. -/
theorem k2_lhs_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl

/-- The left operand's column is the contracted coordinate. -/
theorem k2_lhs_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q

/-- The right operand's row is the contracted coordinate. -/
theorem k2_rhs_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q

/-- The right operand's column is the result's column. -/
theorem k2_rhs_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-! ## The product at an index -/

/-- A [1024, 2048] by [2048, 256] product accumulated into zero is, at (p, o), the sum over m of the left operand at
    (p, m) times the right at (m, o). -/
theorem k2_matmul_apply (l : FVec Ideal S1024x2048 .bf16) (w : FVec Ideal S2048x256 .bf16) (p : Fin 1024) (o : Fin 256) :
    matmul dot_S1024x2048_S2048x256_S1024x256_1_0_0_1_n_n none l w (constant (F := Ideal) S1024x256 .f32 0x00000000#32) (ix2 p o)
      = ∑ m : Fin 2048, l (ix2 p m) * w (ix2 m o) := by
  refine (Ideal.matmul_constant_zero_apply dot_S1024x2048_S2048x256_S1024x256_1_0_0_1_n_n none l w (ix2 p o)).trans ?_
  rw [← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p o) ((contrEquiv1 dot_S1024x2048_S2048x256_S1024x256_1_0_0_1_n_n 2048 rfl rfl).symm k) = ix2 p k :=
    funext fun a => Fin.ext (by
      match a with
      | ⟨0, _⟩ => exact k2_lhs_0 _ _
      | ⟨1, _⟩ => exact (k2_lhs_1 _ _).trans hk)
  have er : dot_S1024x2048_S2048x256_S1024x256_1_0_0_1_n_n.rhsIdx (ix2 p o) ((contrEquiv1 dot_S1024x2048_S2048x256_S1024x256_1_0_0_1_n_n 2048 rfl rfl).symm k) = ix2 k o :=
    funext fun a => Fin.ext (by
      match a with
      | ⟨0, _⟩ => exact (k2_rhs_0 _ _).trans hk
      | ⟨1, _⟩ => exact k2_rhs_1 _ _)
  rw [el, er]

/-! ## The column along the rows -/

/-- A [1024, 1] column broadcast to [1024, 256] reads, at (p, c), the column at row p. -/
theorem k2_column_apply (v : FVec Ideal S1024x1 .f32) (h : S1024x1.Broadcasts S1024x256) (p : Fin 1024) (c : Fin 256) :
    broadcastTo S1024x256 v h (ix2 p c) = v (ix2 p (0 : Fin 1)) := by
  refine broadcastTo_apply v h (ix2 p c) (ix2 p (0 : Fin 1)) fun ax => ?_
  match ax with
  | ⟨0, _⟩ =>
    show p.val = if (1024 : Nat) = 1 then 0 else p.val
    rw [if_neg (by decide)]
  | ⟨1, _⟩ => rfl

/-! ## The stored value at an index -/

/-- Entry (r, o) of the stored block: row r of the adjacency block against column o of the scaled features, times
    entry r of the column, plus entry o of the bias. -/
theorem k2_apply (v0 : Vec Ideal S1x1024x2048 .f32) (v3 : Vec Ideal S1x2048x256 .f32) (v7 : Vec Ideal S1x1024x1 .f32)
    (v11 : Vec Ideal S256 .f32) (r : Fin 1024) (o : Fin 256) :
    k2_pay1 (F := Ideal) v0 v3 v7 v11 (ix3 (0 : Fin 1) r o)
      = (∑ m : Fin 2048, v0 (ix3 (0 : Fin 1) r m) * v3 (ix3 (0 : Fin 1) m o)) * v7 (ix3 (0 : Fin 1) r (0 : Fin 1))
        + v11 (ix1 o) := by
  unfold k2_pay1
  refine (shapeCast_ab_1ab_apply _ _ 0 r o).trans ?_
  refine (addf_apply _ _ _).trans ?_
  refine congrArg₂ (· + ·) ?_ ?_
  · refine (mulf_apply _ _ _).trans ?_
    refine congrArg₂ (· * ·) ?_ ?_
    · refine (k2_matmul_apply _ _ r o).trans ?_
      refine Finset.sum_congr rfl fun m _ => ?_
      refine congrArg₂ (· * ·) ?_ ?_
      · refine (truncf_apply (φ := .f32) (ψ := .bf16) _ _ _).trans ?_
        exact shapeCast_1ab_ab_apply v0 _ r m
      · refine (truncf_apply (φ := .f32) (ψ := .bf16) _ _ _).trans ?_
        exact shapeCast_1ab_ab_apply v3 _ m o
    · refine (k2_column_apply _ _ r o).trans ?_
      exact shapeCast_1ab_ab_apply v7 _ r 0
  · refine (broadcastTo_1b_ab_apply _ _ r o).trans ?_
    exact shapeCast_a_1a_apply v11 _ 0 o

end Cert.KernelIdeal.Pay

end
-- ==== Proof.KI.Value2.lean ====
/-
  The third region's output array after the region, index by index.

  The region's grid has 8 × 2 points; point t handles batch b = t / 2 and the half nt = t % 2 of the 2048 rows.
  Its output block at t is rows nt·1024 … nt·1024 + 1023 of batch b. The body stores there, at row r and column o,
      (∑ m, A(r, m) · S(m, o)) · D(r) + β(o)
  of its four input blocks: A the same rows of the adjacency's batch b, S the whole batch b of the projected and
  scaled features, D the same rows of the scaling column's batch b, β the whole bias. An element of a block sits
  in its array, on every axis, at block index × block size + its coordinate inside the block, so what point t
  writes back is its block of ONE function of the arrays the region is entered with; every point writes back and
  row n of batch b lies in the block of the point with nt = n / 1024, so the array ends holding that function.
-/
import proofs.«171595_j82643760710010_1_alg».proof.Proof.KI.Region2
import proofs.«171595_j82643760710010_1_alg».proof.Proof.Payloads2
import Idealize.ShloMosaic.Lib.Pipeline.Value
import Idealize.ShloMosaic.Lib.ValueIdx

noncomputable section

open scoped BigOperators

namespace Cert.KernelIdeal.Val2

open Cert.KernelIdeal Cert.KernelIdeal.Gen Cert.KernelIdeal.R2
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

theorem hz3 : (![0, 0, 0] : Fin 3 → Nat) = fun _ => 0 := funext fun a => by fin_cases a <;> rfl
theorem hz1 : (![0] : Fin 1 → Nat) = fun _ => 0 := funext fun a => by fin_cases a <;> rfl

/-- The block indices at a point, decided over the grid: every input block the body reads sits at the output
    block's batch (and, for the adjacency and the scaling column, at its half of the rows), at index 0 on the other
    axes; the output's batch index is at most 7, its row-half index at most 1, its column index 0. -/
theorem idx_facts : ∀ t : Fin cfg2.N,
    win2_0.index t (0 : Fin 3) = win2_4.index t (0 : Fin 3) ∧ win2_0.index t (1 : Fin 3) = win2_4.index t (1 : Fin 3)
    ∧ win2_0.index t (2 : Fin 3) = 0
    ∧ win2_1.index t (0 : Fin 3) = win2_4.index t (0 : Fin 3) ∧ win2_1.index t (1 : Fin 3) = 0 ∧ win2_1.index t (2 : Fin 3) = 0
    ∧ win2_2.index t (0 : Fin 3) = win2_4.index t (0 : Fin 3) ∧ win2_2.index t (1 : Fin 3) = win2_4.index t (1 : Fin 3)
    ∧ win2_2.index t (2 : Fin 3) = 0
    ∧ win2_3.index t (0 : Fin 1) = 0
    ∧ win2_4.index t (0 : Fin 3) ≤ 7 ∧ win2_4.index t (1 : Fin 3) ≤ 1 ∧ win2_4.index t (2 : Fin 3) = 0 :=
  (by decide +kernel : ∀ t : Fin grid2.N, _)

/-- Every (batch, row half) is some point's output block. -/
theorem idx_onto : ∀ (q0 : Fin 8) (q1 : Fin 2), ∃ t : Fin cfg2.N, win2_4.index t = ![q0.val, q1.val, 0] :=
  (by decide +kernel : ∀ (q0 : Fin 8) (q1 : Fin 2), ∃ t : Fin grid2.N, win2_4.index t = ![q0.val, q1.val, 0])

/-- The adjacency and the bias as the region finds them. -/
abbrev adj (c : Dev nD) : FVec Ideal S8x2048x2048 .f32 := V c main_arg1
abbrev bias (c : Dev nD) : FVec Ideal S256 .f32 := V c main_arg3

/-- The value at row n, column o of batch b: the row of the adjacency against column o of S, scaled by D, plus the bias. -/
def rowOut (c : Dev nD) (S : Fin 8 → Fin 2048 → Fin 256 → EReal) (D : Fin 8 → Fin 2048 → EReal)
    (b : Fin 8) (n : Fin 2048) (o : Fin 256) : EReal :=
  (∑ m : Fin 2048, adj V c (ix3 b n m) * S b m o) * D b n + bias V c (ix1 o)

/-- The whole array: rowOut at the index's coordinates. -/
def arrOut (c : Dev nD) (S : Fin 8 → Fin 2048 → Fin 256 → EReal) (D : Fin 8 → Fin 2048 → EReal) :
    FVec Ideal S8x2048x256 .f32 := fun i => rowOut V c S D (i 0) (i 1) (i 2)

/-- The body's stored value at row r, column o of its block, when the four input blocks are read where the
    output's block says: rows of batch b of the adjacency and of the column at array row n, batch b of S whole. -/
theorem point_value
    (x0 : Vec Ideal S1x1024x2048 .f32) (x1 : Vec Ideal S1x2048x256 .f32) (x2 : Vec Ideal S1x1024x1 .f32)
    (x3 : Vec Ideal S256 .f32) (A : FVec Ideal S8x2048x2048 .f32) (β : FVec Ideal S256 .f32)
    (S : Fin 8 → Fin 2048 → Fin 256 → EReal) (D : Fin 8 → Fin 2048 → EReal)
    (b : Fin 8) (n : Fin 2048) (r : Fin 1024) (o : Fin 256)
    (h0 : ∀ m : Fin 2048, x0 (ix3 0 r m) = A (ix3 b n m)) (h1 : ∀ m : Fin 2048, x1 (ix3 0 m o) = S b m o)
    (h2 : x2 (ix3 0 r 0) = D b n) (h3 : x3 (ix1 o) = β (ix1 o)) :
    k2_pay1 (F := Ideal) x0 x1 x2 x3 (ix3 (0 : Fin 1) r o) = (∑ m : Fin 2048, A (ix3 b n m) * S b m o) * D b n + β (ix1 o) := by
  rw [Pay.k2_apply, h2, h3]
  refine congrArg (fun s => s * D b n + β (ix1 o)) (Finset.sum_congr rfl fun m _ => ?_)
  rw [h0, h1]

/-- WHAT POINT t WRITES BACK is its block of arrOut: the stored value at (r, o) of the block, with each input block
    read at block index × block size + the coordinate inside the block, is arrOut at the block's element's place. -/
theorem flushed2_eq
    (c : Dev nD) (S : Fin 8 → Fin 2048 → Fin 256 → EReal) (D : Fin 8 → Fin 2048 → EReal)
    (hS : ∀ b m o, (V c main_v1 : FVec Ideal S8x2048x256 .f32) (ix3 b m o) = S b m o)
    (hD : ∀ b n, (V c main_v0 : FVec Ideal S8x2048x1 .f32) (ix3 b n (0 : Fin 1)) = D b n) (t : Fin cfg2.N) :
    (dat2 V c).flushed 4 t = ((cfg2.win 4).blk t).view.read (Elt Ideal) (arrOut V c S D) := by
  show (cfg2.win 4).cut (grid2.coords t) ((dat2 V c).after 4 t) = _
  rw [after2_out]
  unfold out2
  rw [View.canon_unit_zero hz3]
  simp only [View.ld_unit_zero (S := S1x1024x2048) hz3, View.ld_unit_zero (S := S1x2048x256) hz3,
    View.ld_unit_zero (S := S1x1024x1) hz3, View.ld_unit_zero (S := S256) hz1]
  obtain ⟨e00, e01, e02, e10, e11, e12, e20, e21, e22, e30, l0, l1, e42⟩ := idx_facts t
  funext y
  have hy0 : (y 0).val < 1 := (y 0).isLt
  have hy1 : (y 1).val < 1024 := (y 1).isLt
  have hy2 : (y 2).val < 256 := (y 2).isLt
  obtain ⟨r, hr⟩ : ∃ r : Fin 1024, r.val = (y 1).val := ⟨⟨(y 1).val, hy1⟩, rfl⟩
  obtain ⟨o, ho⟩ : ∃ o : Fin 256, o.val = (y 2).val := ⟨⟨(y 2).val, hy2⟩, rfl⟩
  obtain ⟨b, hb⟩ : ∃ b : Fin 8, b.val = win2_4.index t (0 : Fin 3) := ⟨⟨win2_4.index t (0 : Fin 3), by omega⟩, rfl⟩
  obtain ⟨n, hn⟩ : ∃ n : Fin 2048, n.val = win2_4.index t (1 : Fin 3) * 1024 + (y 1).val :=
    ⟨⟨win2_4.index t (1 : Fin 3) * 1024 + (y 1).val, by omega⟩, rfl⟩
  have hy : y = ix3 (0 : Fin 1) r o := funext fun a => Fin.ext (by
    match a with
    | ⟨0, _⟩ => show (y 0).val = 0; omega
    | ⟨1, _⟩ => show (y 1).val = r.val; omega
    | ⟨2, _⟩ => show (y 2).val = o.val; omega)
  have hi : ((cfg2.win 4).blk t).view.emb y = ix3 b n o := funext fun a => Fin.ext (by
    match a with
    | ⟨0, _⟩ => show win2_4.index t (0 : Fin 3) * 1 + 1 * (y 0).val = b.val; omega
    | ⟨1, _⟩ => show win2_4.index t (1 : Fin 3) * 1024 + 1 * (y 1).val = n.val; omega
    | ⟨2, _⟩ => show win2_4.index t (2 : Fin 3) * 256 + 1 * (y 2).val = o.val; omega)
  have h0 : ∀ m : Fin 2048, (iblk2 V c 0 t : Vec Ideal S1x1024x2048 .f32) (ix3 0 r m) = adj V c (ix3 b n m) := fun m => by
    show V c main_arg1 (((cfg2.win 0).blk t).view.emb (ix3 0 r m)) = V c main_arg1 (ix3 b n m)
    refine congrArg (V c main_arg1) (funext fun a => Fin.ext ?_)
    match a with
    | ⟨0, _⟩ => show win2_0.index t (0 : Fin 3) * 1 + 1 * 0 = b.val; omega
    | ⟨1, _⟩ => show win2_0.index t (1 : Fin 3) * 1024 + 1 * r.val = n.val; omega
    | ⟨2, _⟩ => show win2_0.index t (2 : Fin 3) * 2048 + 1 * m.val = m.val; omega
  have h1 : ∀ m : Fin 2048, (iblk2 V c 1 t : Vec Ideal S1x2048x256 .f32) (ix3 0 m o) = S b m o := fun m => by
    rw [← hS]
    show V c main_v1 (((cfg2.win 1).blk t).view.emb (ix3 0 m o)) = V c main_v1 (ix3 b m o)
    refine congrArg (V c main_v1) (funext fun a => Fin.ext ?_)
    match a with
    | ⟨0, _⟩ => show win2_1.index t (0 : Fin 3) * 1 + 1 * 0 = b.val; omega
    | ⟨1, _⟩ => show win2_1.index t (1 : Fin 3) * 2048 + 1 * m.val = m.val; omega
    | ⟨2, _⟩ => show win2_1.index t (2 : Fin 3) * 256 + 1 * o.val = o.val; omega
  have h2 : (iblk2 V c 2 t : Vec Ideal S1x1024x1 .f32) (ix3 0 r 0) = D b n := by
    rw [← hD]
    show V c main_v0 (((cfg2.win 2).blk t).view.emb (ix3 0 r 0)) = V c main_v0 (ix3 b n 0)
    refine congrArg (V c main_v0) (funext fun a => Fin.ext ?_)
    match a with
    | ⟨0, _⟩ => show win2_2.index t (0 : Fin 3) * 1 + 1 * 0 = b.val; omega
    | ⟨1, _⟩ => show win2_2.index t (1 : Fin 3) * 1024 + 1 * r.val = n.val; omega
    | ⟨2, _⟩ => show win2_2.index t (2 : Fin 3) * 1 + 1 * 0 = 0; omega
  have h3 : (iblk2 V c 3 t : Vec Ideal S256 .f32) (ix1 o) = bias V c (ix1 o) := by
    show V c main_arg3 (((cfg2.win 3).blk t).view.emb (ix1 o)) = V c main_arg3 (ix1 o)
    refine congrArg (V c main_arg3) (funext fun a => Fin.ext ?_)
    match a with
    | ⟨0, _⟩ => show win2_3.index t (0 : Fin 1) * 256 + 1 * o.val = o.val; omega
  show k2_pay1 (F := Ideal) (iblk2 V c 0 t) (iblk2 V c 1 t) (iblk2 V c 2 t) (iblk2 V c 3 t) y
    = arrOut V c S D (((cfg2.win 4).blk t).view.emb y)
  rw [hi]
  refine (congrArg (k2_pay1 (F := Ideal) (iblk2 V c 0 t) (iblk2 V c 1 t) (iblk2 V c 2 t) (iblk2 V c 3 t)) hy).trans ?_
  exact point_value (iblk2 V c 0 t) (iblk2 V c 1 t) (iblk2 V c 2 t) (iblk2 V c 3 t) (adj V c) (bias V c) S D b n r o
    h0 h1 h2 h3

/-- An index of the array is in point t's block iff each coordinate is in the block's range on its axis. -/
theorem mem_blk2 (t : Fin cfg2.N) (i : S8x2048x256.Idx) :
    i ∈ ((cfg2.win 4).blk t).view.set
      ↔ ∀ a : Fin 3, win2_4.index t a * S1x1024x256.size a ≤ (i a).val
          ∧ (i a).val < win2_4.index t a * S1x1024x256.size a + S1x1024x256.size a := by
  show i ∈ ((View.whole main_v2).slice (win2_4.rect t)).set ↔ _
  rw [View.set_slice_whole, Rect.mem_set_unit]
  exact Iff.rfl

/-- Every index of the array is in the block of a point that writes back: row n of batch b lies in the block
    of the point whose batch index is b and whose row-half index is n / 1024. -/
theorem covered2 (i : S8x2048x256.Idx) :
    ∃ t : Fin cfg2.N, (cfg2.win 4).flush t = true ∧ i ∈ ((cfg2.win 4).blk t).view.set := by
  have hi0 : (i 0).val < 8 := (i 0).isLt
  have hi1 : (i 1).val < 2048 := (i 1).isLt
  have hi2 : (i 2).val < 256 := (i 2).isLt
  obtain ⟨t, ht⟩ := idx_onto ⟨(i 0).val, hi0⟩ ⟨(i 1).val / 1024, by omega⟩
  have q0 : win2_4.index t (0 : Fin 3) = (i 0).val := congrFun ht 0
  have q1 : win2_4.index t (1 : Fin 3) = (i 1).val / 1024 := congrFun ht 1
  have q2 : win2_4.index t (2 : Fin 3) = 0 := congrFun ht 2
  refine ⟨t, flush2_4 t, ?_⟩
  rw [mem_blk2]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 1024 ≤ (i 1).val ∧ (i 1).val < win2_4.index t (1 : Fin 3) * 1024 + 1024; omega
  | ⟨2, _⟩ => show win2_4.index t (2 : Fin 3) * 256 ≤ (i 2).val ∧ (i 2).val < win2_4.index t (2 : Fin 3) * 256 + 256; omega

/-- THE ARRAY after the region: arrOut of the arrays the region is entered with. -/
theorem final2_eq
    (c : Dev nD) (S : Fin 8 → Fin 2048 → Fin 256 → EReal) (D : Fin 8 → Fin 2048 → EReal)
    (hS : ∀ b m o, (V c main_v1 : FVec Ideal S8x2048x256 .f32) (ix3 b m o) = S b m o)
    (hD : ∀ b n, (V c main_v0 : FVec Ideal S8x2048x1 .f32) (ix3 b n (0 : Fin 1)) = D b n) :
    (dat2 V c).arrAt 4 cfg2.N = arrOut V c S D :=
  (dat2 V c).arrAt_eq_of_cover 4 (arrOut V c S D) (fun t _ => flushed2_eq V c S D hS hD t) covered2

/-- The same at an index given by its coordinates. -/
theorem final2
    (c : Dev nD) (S : Fin 8 → Fin 2048 → Fin 256 → EReal) (D : Fin 8 → Fin 2048 → EReal)
    (hS : ∀ b m o, (V c main_v1 : FVec Ideal S8x2048x256 .f32) (ix3 b m o) = S b m o)
    (hD : ∀ b n, (V c main_v0 : FVec Ideal S8x2048x1 .f32) (ix3 b n (0 : Fin 1)) = D b n)
    (b : Fin 8) (n : Fin 2048) (o : Fin 256) :
    ((dat2 V c).arrAt 4 cfg2.N : FVec Ideal S8x2048x256 .f32) (ix3 b n o)
      = (∑ m : Fin 2048, adj V c (ix3 b n m) * S b m o) * D b n + bias V c (ix1 o) := by
  rw [final2_eq V c S D hS hD]
  rfl

end Cert.KernelIdeal.Val2

end
-- ==== Proof.KI.Value.lean ====
/-
  The kernel program's result as a function of its four arguments. The first region leaves the reciprocal square
  roots of the adjacency's column sums; the second reads them beside the features and the weights and leaves the
  projected features scaled by them; the third reads the adjacency, those scaled projections, the scales and the bias
  and leaves, at (b, n, o), the sum over m of a(b, n, m) times the scaled projection at (b, m, o), times the scale
  at (b, n), plus the bias at o. No region writes an array an earlier one wrote or an argument, so each region finds
  the arguments as launched and the earlier regions' outputs as they left them.
-/
import proofs.«171595_j82643760710010_1_alg».proof.Proof.KI.Run
import proofs.«171595_j82643760710010_1_alg».proof.Proof.KI.Value0
import proofs.«171595_j82643760710010_1_alg».proof.Proof.KI.Value1
import proofs.«171595_j82643760710010_1_alg».proof.Proof.KI.Value2
import proofs.«171595_j82643760710010_1_alg».proof.Proof.Spec

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Run Idealize.ShloMosaic.ValueIdx
open scoped BigOperators

variable (m : (ℓ : Loc nD τ sig) → Buf (Elt Ideal) ℓ) (ρ : Dev nD → PrngReg) (c : Dev nD)

/-! ## What each region finds -/

theorem V1_arg0 : V1 m ρ c main_arg0 = m ((c : Thread nD τ).loc main_arg0) := (W1_of_ne m ρ c main_arg0 (by decide)).trans rfl
theorem V1_arg2 : V1 m ρ c main_arg2 = m ((c : Thread nD τ).loc main_arg2) := (W1_of_ne m ρ c main_arg2 (by decide)).trans rfl
theorem V1_arg1 : V1 m ρ c main_arg1 = m ((c : Thread nD τ).loc main_arg1) :=
  (W1_arr m ρ c 0).trans (((R0.dat0 (V0 m ρ) c).arrAt_in 0 rfl _).trans ((R0.A_eq0 (V0 m ρ) c 0).trans rfl))
theorem V1_arg3 : V1 m ρ c main_arg3 = m ((c : Thread nD τ).loc main_arg3) := (W1_of_ne m ρ c main_arg3 (by decide)).trans rfl

/-- The second region finds the scales the first left. -/
theorem V1_v0 (b : Fin 8) (n : Fin 2048) :
    V1 m ρ c main_v0 (ix3 b n (0 : Fin 1)) = Cert.Spec.degK (m ((c : Thread nD τ).loc main_arg1)) b n := by
  rw [show V1 m ρ c main_v0 = (R0.dat0 (V0 m ρ) c).arrAt 1 cfg0.N from W1_arr m ρ c 1]
  exact Val0.final0 (V0 m ρ) c b n

theorem V2_arg1 : V2 m ρ c main_arg1 = m ((c : Thread nD τ).loc main_arg1) :=
  (W2_of_ne m ρ c main_arg1 (by decide)).trans (V1_arg1 m ρ c)
theorem V2_arg3 : V2 m ρ c main_arg3 = m ((c : Thread nD τ).loc main_arg3) :=
  (W2_of_ne m ρ c main_arg3 (by decide)).trans (V1_arg3 m ρ c)
/-- The third region finds the scales as the first left them (the second only read them), -/
theorem V2_v0 (b : Fin 8) (n : Fin 2048) :
    V2 m ρ c main_v0 (ix3 b n (0 : Fin 1)) = Cert.Spec.degK (m ((c : Thread nD τ).loc main_arg1)) b n := by
  rw [show V2 m ρ c main_v0 = V1 m ρ c main_v0 from
    (W2_arr m ρ c 2).trans (((R1.dat1 (V1 m ρ) c).arrAt_in 2 rfl _).trans (R1.A_eq1 (V1 m ρ) c 2))]
  exact V1_v0 m ρ c b n
/-- and the scaled projections the second left. -/
theorem V2_v1 (b : Fin 8) (n : Fin 2048) (o : Fin 256) :
    V2 m ρ c main_v1 (ix3 b n o)
      = Cert.Spec.support (m ((c : Thread nD τ).loc main_arg0)) (m ((c : Thread nD τ).loc main_arg2)) b n o
        * Cert.Spec.degK (m ((c : Thread nD τ).loc main_arg1)) b n := by
  rw [show V2 m ρ c main_v1 = (R1.dat1 (V1 m ρ) c).arrAt 3 cfg1.N from W2_arr m ρ c 3,
    Val1.final1 (V1 m ρ) c _ (V1_v0 m ρ c) b n o, V1_arg0, V1_arg2]

/-! ## The result -/

/-- The result buffer after the run, element by element. -/
theorem result (b : Fin 8) (n : Fin 2048) (o : Fin 256) :
    (R2.dat2 (V2 m ρ) c).arrAt 4 cfg2.N (ix3 b n o)
      = Cert.Spec.kernelOut (m ((c : Thread nD τ).loc main_arg0)) (m ((c : Thread nD τ).loc main_arg1))
          (m ((c : Thread nD τ).loc main_arg2)) (m ((c : Thread nD τ).loc main_arg3)) b n o := by
  rw [Val2.final2 (V2 m ρ) c _ _ (V2_v1 m ρ c) (V2_v0 m ρ c) b n o]
  unfold Val2.adj Val2.bias
  rw [V2_arg1, V2_arg3]
  rfl

end Cert.KernelIdeal.Val

end
-- ==== Proof.Algebra.lean ====
/-
  The algebraic law between the two arrangements of the normalised product.

  With every entry of x, a, w a real number and every column sum c(b, m) a positive real, the kernel's scale
  rsqrt c and the reference's scale c ^ (−½) are both the positive real d = (√c)⁻¹. Both results are then the
  coercion of a real number plus β(o), and in ℝ
      (∑ m, a(n, m) · (s(m) · d(m))) · d(n)  =  ∑ m, ((d(n) · a(n, m)) · d(m)) · s(m)
  by distributing d(n) over the sum and commuting the factors of each term.
-/
import proofs.«171595_j82643760710010_1_alg».proof.Proof.Spec
import Mathlib.Analysis.SpecialFunctions.Pow.Real
import Mathlib.Analysis.SpecialFunctions.Sqrt

noncomputable section

open scoped BigOperators

namespace Cert.Spec

open Idealize.ShloMosaic Idealize.ShloMosaic.ValueIdx

/-- The float word 0xBF000000 denotes the real −1/2. -/
theorem ofBits_neg_half : Ideal.ofBits .f32 0xBF000000#32 = ((-(1 / 2) : ℝ) : EReal) := by
  simp [Ideal.ofBits, Ideal.ieee, -EReal.coe_mul]; norm_num

/-- The coercion of a finite real sum is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real. -/
theorem rsqrt_of_pos (c : ℝ) (hc : 0 < c) : Ideal.rsqrt (c : EReal) = (((Real.sqrt c)⁻¹ : ℝ) : EReal) := by
  rw [Ideal.rsqrt_coe, if_neg (not_lt.mpr hc.le), if_neg hc.ne']

/-- A positive real to the power −1/2 is the reciprocal of its square root. -/
theorem pow_neg_half_of_pos (c : ℝ) (hc : 0 < c) :
    Ideal.pow (c : EReal) (Ideal.ofBits .f32 0xBF000000#32) = (((Real.sqrt c)⁻¹ : ℝ) : EReal) := by
  rw [ofBits_neg_half, Ideal.pow_coe_coe]
  congr 1
  show c ^ (-(1 / 2) : ℝ) = (Real.sqrt c)⁻¹
  rw [Real.rpow_neg hc.le, Real.sqrt_eq_rpow]

/-- The law in ℝ: the outer scale distributes over the sum and the factors of each term commute. -/
theorem real_law {ι : Type} [Fintype ι] (α s d : ι → ℝ) (dn : ℝ) :
    (∑ m, α m * (s m * d m)) * dn = ∑ m, ((dn * α m) * d m) * s m := by
  rw [Finset.sum_mul]
  exact Finset.sum_congr rfl (fun m _ => by ring)

/-- With real entries and positive column sums the kernel's result is the reference's. -/
theorem kernelOut_eq_refOut
    (x : (⟨3, ![8, 2048, 256]⟩ : Shape).Idx → EReal) (a : (⟨3, ![8, 2048, 2048]⟩ : Shape).Idx → EReal)
    (w : (⟨2, ![256, 256]⟩ : Shape).Idx → EReal) (β : (⟨1, ![256]⟩ : Shape).Idx → EReal)
    (hx : ∀ i, ∃ r : ℝ, x i = (r : EReal)) (ha : ∀ i, ∃ r : ℝ, a i = (r : EReal))
    (hw : ∀ i, ∃ r : ℝ, w i = (r : EReal)) (hpos : ∀ b m, 0 < colsum a b m)
    (b : Fin 8) (n : Fin 2048) (o : Fin 256) :
    kernelOut x a w β b n o = refOut x a w β b n o := by
  choose xr hx using hx
  choose ar ha using ha
  choose wr hw using hw
  -- every column sum is the coercion of a real sum, which is positive
  have hcol : ∀ b m, colsum a b m = ((∑ k : Fin 2048, ar (ix3 b k m) : ℝ) : EReal) := by
    intro b m
    unfold colsum
    rw [coe_finset_sum]
    exact Finset.sum_congr rfl (fun k _ => ha _)
  have hcpos : ∀ b m, 0 < ∑ k : Fin 2048, ar (ix3 b k m) := by
    intro b m
    have h := hpos b m
    rw [hcol] at h
    exact_mod_cast h
  -- both scales are the same positive real
  have hK : ∀ b m, degK a b m = (((Real.sqrt (∑ k : Fin 2048, ar (ix3 b k m)))⁻¹ : ℝ) : EReal) := by
    intro b m
    unfold degK
    rw [hcol, rsqrt_of_pos _ (hcpos b m)]
  have hR : ∀ b m, degR a b m = (((Real.sqrt (∑ k : Fin 2048, ar (ix3 b k m)))⁻¹ : ℝ) : EReal) := by
    intro b m
    unfold degR
    rw [hcol, pow_neg_half_of_pos _ (hcpos b m)]
  -- the projected features are real
  have hS : ∀ b m o, support x w b m o = ((∑ f : Fin 256, xr (ix3 b m f) * wr (ix2 f o) : ℝ) : EReal) := by
    intro b m o
    unfold support
    rw [coe_finset_sum]
    refine Finset.sum_congr rfl (fun f _ => ?_)
    rw [hx, hw, EReal.coe_mul]
  unfold kernelOut refOut
  congr 1
  have hL : (∑ m : Fin 2048, a (ix3 b n m) * (support x w b m o * degK a b m))
      = ((∑ m : Fin 2048, ar (ix3 b n m) * ((∑ f : Fin 256, xr (ix3 b m f) * wr (ix2 f o))
          * (Real.sqrt (∑ k : Fin 2048, ar (ix3 b k m)))⁻¹) : ℝ) : EReal) := by
    rw [coe_finset_sum]
    refine Finset.sum_congr rfl (fun m _ => ?_)
    rw [ha, hS, hK, EReal.coe_mul, EReal.coe_mul]
  have hRr : (∑ m : Fin 2048, ((degR a b n * a (ix3 b n m)) * degR a b m) * support x w b m o)
      = ((∑ m : Fin 2048, (((Real.sqrt (∑ k : Fin 2048, ar (ix3 b k n)))⁻¹ * ar (ix3 b n m))
          * (Real.sqrt (∑ k : Fin 2048, ar (ix3 b k m)))⁻¹) * (∑ f : Fin 256, xr (ix3 b m f) * wr (ix2 f o)) : ℝ) : EReal) := by
    rw [coe_finset_sum]
    refine Finset.sum_congr rfl (fun m _ => ?_)
    rw [ha, hS, hR, hR, EReal.coe_mul, EReal.coe_mul, EReal.coe_mul]
  rw [hL, hRr, hK, ← EReal.coe_mul, real_law]

end Cert.Spec

end
-- ==== Proof.PreFacts.lean ====
/-
  What the precondition says of the four arrays.

  The precondition is the conjunction of five tests: for each of x, a, w, β that every entry v has |v| < +∞, and
  that every column sum of the adjacency is above zero. On the extended reals |v| = max v (−v) is below +∞
  exactly when v is a real number, so the first four tests give a real witness for every entry; the fifth, read
  at (b, m), is 0 < 0 + ∑ n, a(b, n, m), the positivity of the column sum.
-/
import proofs.«171595_j82643760710010_1_alg».proof.Pre_finite_inputs
import proofs.«171595_j82643760710010_1_alg».proof.Proof.Spec
import Idealize.ShloMosaic.Lib.ReduceAll
import Idealize.ShloMosaic.Lib.ValueIdx
import Idealize.ShloMosaic.PureOps.Ideal.Laws

noncomputable section

open scoped BigOperators

namespace Cert.PreFacts

open Idealize.ShloMosaic Idealize.ShloMosaic.ValueIdx Cert.Pre_finite_inputs

/-- The scalar shape has one index. -/
instance : Subsingleton S_.Idx := ⟨fun a b => funext fun d => d.elim0⟩

/-- A one-bit word made from a truth value is 1 exactly when the value is true. -/
theorem ofBool_eq_one {p : Bool} : BitVec.ofBool p = 1#1 ↔ p = true := by cases p <;> decide

/-- An extended real whose absolute value max v (−v) is below +∞ is a real number. -/
theorem real_of_abs_lt_inf (v : EReal)
    (h : Ideal.cmp .olt (max v (-v)) (Ideal.ofBits .f32 0x7F800000#32) = 1#1) : ∃ r : ℝ, v = (r : EReal) := by
  have htop : Ideal.ofBits .f32 0x7F800000#32 = (⊤ : EReal) := by simp [Ideal.ofBits, Ideal.ieee]
  rw [htop] at h
  simp only [Ideal.cmp, ofBool_eq_one, decide_eq_true_eq] at h
  induction v using EReal.rec with
  | bot => simp at h
  | coe r => exact ⟨r, rfl⟩
  | top => simp at h

variable [Facts]
open Facts

/-- The host's sum of the adjacency over axis 1 from the zero word, read at (b, m), is the column sum. -/
theorem colsum_read (a : FVec Ideal S8x2048x2048 .f32) (b : Fin 8) (m : Fin 2048) :
    Host.reduceAdd (F := Ideal) a (constant S_ .f32 0x00000000#32) reducesTo_S8x2048x2048_S8x2048_d1 h_S_ (ix2 b m)
      = Cert.Spec.colsum a b m := by
  simp only [Host.reduceAdd, Ideal.hostReduceAdd_def]
  rw [Ideal.hostReduceAdd_single reducesTo_S8x2048x2048_S8x2048_d1 (by decide)]
  show Ideal.ofBits .f32 0x00000000#32 + _ = _
  rw [Ideal.ofBits_zero_f32, zero_add]
  unfold Cert.Spec.colsum
  refine Finset.sum_congr rfl fun k _ => ?_
  exact congrArg a (funext fun d => Fin.ext (by match d with | ⟨0, _⟩ => rfl | ⟨1, _⟩ => rfl | ⟨2, _⟩ => rfl))

/-- When the precondition holds, every entry of x, a, w is a real number and every column sum of a is positive. -/
theorem facts (x : FVec Ideal S8x2048x256 .f32) (a : FVec Ideal S8x2048x2048 .f32) (w : FVec Ideal S256x256 .f32)
    (β : FVec Ideal S256 .f32) (h : Cert.Pre_finite_inputs.fn (F := Ideal) x a w β = fun _ => 1#1) :
    (∀ i, ∃ r : ℝ, x i = (r : EReal)) ∧ (∀ i, ∃ r : ℝ, a i = (r : EReal)) ∧ (∀ i, ∃ r : ℝ, w i = (r : EReal))
      ∧ (∀ b m, 0 < Cert.Spec.colsum a b m) := by
  have h0 := congrFun h ix0
  dsimp only [fn, fn_part1] at h0
  simp only [andi, IntOp.andi_eq_one] at h0
  obtain ⟨⟨⟨⟨hx, ha⟩, hw⟩, _⟩, hc⟩ := h0
  refine ⟨fun i => ?_, fun i => ?_, fun i => ?_, fun b m => ?_⟩
  · exact real_of_abs_lt_inf (x i) (Host.reduce_andi_all _ _ _ _ _ hx i)
  · exact real_of_abs_lt_inf (a i) (Host.reduce_andi_all _ _ _ _ _ ha i)
  · exact real_of_abs_lt_inf (w i) (Host.reduce_andi_all _ _ _ _ _ hw i)
  · have e := Host.reduce_andi_all _ _ _ _ _ hc (ix2 b m)
    have e' : Ideal.cmp .ogt
        (Host.reduceAdd (F := Ideal) a (constant S_ .f32 0x00000000#32) reducesTo_S8x2048x2048_S8x2048_d1 h_S_ (ix2 b m))
        (Ideal.ofBits .f32 0x00000000#32) = 1#1 := e
    rw [colsum_read, Ideal.ofBits_zero_f32] at e'
    simpa only [Ideal.cmp, ofBool_eq_one, decide_eq_true_eq] using e'

end Cert.PreFacts

end
-- ==== Proof.RefValue.lean ====
/-
  The reference's result, element by element.

  The reference sums the adjacency over its axis 1, c(b, m) = 0 + ∑ n, a(b, n, m), raises it to the power −1/2,
  multiplies the adjacency by that scale broadcast along the rows' index (b, n) and then along the columns' index
  (b, m), projects the features, s(b, m, o) = ∑ f, x(b, m, f) · w(f, o), contracts the scaled adjacency against
  the projection over m and adds the bias broadcast over (b, n). Each stage is read at an index given by its
  coordinates; the index maps of the broadcasts and of the two contractions are identified with the coordinate
  constructors, after which the last stage at (b, n, o) is the specification's reference formula.
-/
import proofs.«171595_j82643760710010_1_alg».proof.Proof.Gen.ReferenceIdeal.Read
import proofs.«171595_j82643760710010_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The sum over axis 1 from the zero word, at (b, m), is the column sum. -/
theorem v0_at (a : (⟨S8x2048x2048, .f32⟩ : BufTy).Contents (Elt Ideal)) (b : Fin 8) (m : Fin 2048) :
    val_main_v0 (F := Ideal) a (ix2 b m) = Cert.Spec.colsum a b m := by
  rw [val_main_v0_apply, val_main_cst_apply]
  show Ideal.ofBits .f32 0x00000000#32 + _ = _
  rw [Ideal.ofBits_zero_f32, zero_add]
  unfold Cert.Spec.colsum
  refine Finset.sum_congr rfl fun k _ => ?_
  exact congrArg a (funext fun d => Fin.ext (by match d with | ⟨0, _⟩ => rfl | ⟨1, _⟩ => rfl | ⟨2, _⟩ => rfl))

/-- The power stage at (b, m) is the reference's scale. -/
theorem v2_at (a : (⟨S8x2048x2048, .f32⟩ : BufTy).Contents (Elt Ideal)) (b : Fin 8) (m : Fin 2048) :
    val_main_v2 (F := Ideal) a (ix2 b m) = Cert.Spec.degR a b m := by
  rw [val_main_v2_apply, v0_at, val_main_v1_apply, val_main_cst_0_apply]
  rfl

/-- The adjacency scaled on both sides, at (b, n, m). -/
theorem v8_at (a : (⟨S8x2048x2048, .f32⟩ : BufTy).Contents (Elt Ideal)) (b : Fin 8) (n m : Fin 2048) :
    val_main_v8 (F := Ideal) a (ix3 b n m)
      = (Cert.Spec.degR a b n * a (ix3 b n m)) * Cert.Spec.degR a b m := by
  have e1 : idx_main_v3 (idx_main_v4 (ix3 b n m : S8x2048x2048.Idx)) = ix2 b n :=
    funext fun d => Fin.ext (by match d with | ⟨0, _⟩ => rfl | ⟨1, _⟩ => rfl)
  have e2 : idx_main_v6 (idx_main_v7 (ix3 b n m : S8x2048x2048.Idx)) = ix2 b m :=
    funext fun d => Fin.ext (by match d with | ⟨0, _⟩ => rfl | ⟨1, _⟩ => rfl)
  rw [val_main_v8_apply, val_main_v5_apply, val_main_v4_apply, val_main_v3_apply, val_main_v7_apply,
    val_main_v6_apply, e1, e2, v2_at, v2_at]
  rfl

/-- The projected features at (b, m, o). -/
theorem v9_at (x : (⟨S8x2048x256, .f32⟩ : BufTy).Contents (Elt Ideal)) (w : (⟨S256x256, .f32⟩ : BufTy).Contents (Elt Ideal))
    (b : Fin 8) (m : Fin 2048) (o : Fin 256) :
    val_main_v9 (F := Ideal) x w (ix3 b m o) = Cert.Spec.support x w b m o := by
  rw [val_main_v9_apply]
  unfold Cert.Spec.support
  refine Finset.sum_congr rfl fun f _ => ?_
  have el : lidx_main_v9 (ix3 b m o : S8x2048x256.Idx) f = ix3 b m f :=
    funext fun d => Fin.ext (by match d with | ⟨0, _⟩ => rfl | ⟨1, _⟩ => rfl | ⟨2, _⟩ => rfl)
  have er : ridx_main_v9 (ix3 b m o : S8x2048x256.Idx) f = ix2 f o :=
    funext fun d => Fin.ext (by match d with | ⟨0, _⟩ => rfl | ⟨1, _⟩ => rfl)
  rw [el, er]

/-- The bias broadcast over (b, n), at (b, n, o). -/
theorem v12_at (β : (⟨S256, .f32⟩ : BufTy).Contents (Elt Ideal)) (b : Fin 8) (n : Fin 2048) (o : Fin 256) :
    val_main_v12 (F := Ideal) β (ix3 b n o) = β (ix1 o) := by
  rw [val_main_v12_apply, val_main_v11_apply]
  exact congrArg β (funext fun d => Fin.ext (by match d with | ⟨0, _⟩ => rfl))

/-- The last stage at (b, n, o) is the specification's reference formula. -/
theorem val_apply (x : (⟨S8x2048x256, .f32⟩ : BufTy).Contents (Elt Ideal)) (a : (⟨S8x2048x2048, .f32⟩ : BufTy).Contents (Elt Ideal))
    (w : (⟨S256x256, .f32⟩ : BufTy).Contents (Elt Ideal)) (β : (⟨S256, .f32⟩ : BufTy).Contents (Elt Ideal))
    (b : Fin 8) (n : Fin 2048) (o : Fin 256) :
    val_main_v13 (F := Ideal) x a w β (ix3 b n o) = Cert.Spec.refOut x a w β b n o := by
  rw [val_main_v13_apply, val_main_v10_apply, v12_at]
  unfold Cert.Spec.refOut
  show _ + _ = _ + _
  refine congrArg (· + β (ix1 o)) (Finset.sum_congr rfl fun m _ => ?_)
  have el : lidx_main_v10 (ix3 b n o : S8x2048x256.Idx) m = ix3 b n m :=
    funext fun d => Fin.ext (by match d with | ⟨0, _⟩ => rfl | ⟨1, _⟩ => rfl | ⟨2, _⟩ => rfl)
  have er : ridx_main_v10 (ix3 b n o : S8x2048x256.Idx) m = ix3 b m o :=
    funext fun d => Fin.ext (by match d with | ⟨0, _⟩ => rfl | ⟨1, _⟩ => rfl | ⟨2, _⟩ => rfl)
  rw [el, er, v8_at, v9_at]

/-- The same for the term the reference's run states for its result. -/
theorem result_apply (x : FVec Ideal S8x2048x256 .f32) (a : FVec Ideal S8x2048x2048 .f32)
    (w : FVec Ideal S256x256 .f32) (β : FVec Ideal S256 .f32)
    (b : Fin 8) (n : Fin 2048) (o : Fin 256) :
    (addf (F := Ideal) (Host.dotGeneral dot_S8x2048x2048_S8x2048x256_S8x2048x256_2_1_1_2_0_0 none (mulf (mulf (broadcastInDim S8x2048x2048 ![0, 1, 2] bcast_S8x2048x1_S8x2048x2048_0_1_2 (broadcastInDim S8x2048x1 ![0, 1] bcast_S8x2048_S8x2048x1_0_1 (Host.powf (Host.reduceAdd (a) (constant S_ .f32 0x00000000#32) reducesTo_S8x2048x2048_S8x2048_d1 h_S_) (broadcastInDim S8x2048 ![] bcast_S_S8x2048 (constant S_ .f32 0xBF000000#32))))) (a)) (broadcastInDim S8x2048x2048 ![0, 1, 2] bcast_S8x1x2048_S8x2048x2048_0_1_2 (broadcastInDim S8x1x2048 ![0, 2] bcast_S8x2048_S8x1x2048_0_2 (Host.powf (Host.reduceAdd (a) (constant S_ .f32 0x00000000#32) reducesTo_S8x2048x2048_S8x2048_d1 h_S_) (broadcastInDim S8x2048 ![] bcast_S_S8x2048 (constant S_ .f32 0xBF000000#32)))))) (Host.dotGeneral dot_S8x2048x256_S256x256_S8x2048x256_2_0_01_1_n_n none (x) (w))) (broadcastInDim S8x2048x256 ![0, 1, 2] bcast_S1x1x256_S8x2048x256_0_1_2 (broadcastInDim S1x1x256 ![2] bcast_S256_S1x1x256_2 (β))) : (⟨S8x2048x256, .f32⟩ : BufTy).Contents (Elt Ideal)) (ix3 b n o)
      = Cert.Spec.refOut x a w β b n o := by
  rw [val_main_v13_eq]
  exact val_apply x a w β b n o

/-- The reference's result as a whole array: at every index, the reference formula at the index's coordinates. -/
theorem val_eq (x : (⟨S8x2048x256, .f32⟩ : BufTy).Contents (Elt Ideal)) (a : (⟨S8x2048x2048, .f32⟩ : BufTy).Contents (Elt Ideal))
    (w : (⟨S256x256, .f32⟩ : BufTy).Contents (Elt Ideal)) (β : (⟨S256, .f32⟩ : BufTy).Contents (Elt Ideal)) :
    val_main_v13 (F := Ideal) x a w β = fun i => Cert.Spec.refOut x a w β (i 0) (i 1) (i 2) := by
  funext i
  obtain ⟨b, n, o, rfl⟩ : ∃ (b : Fin 8) (n : Fin 2048) (o : Fin 256), i = ix3 b n o := ⟨i 0, i 1, i 2, eq_ix3 i⟩
  exact val_apply x a w β b n o

end Cert.ReferenceIdeal.RefValue

end
-- ==== Proof.lean ====
/-
  A graph-convolution layer with symmetric normalisation. Write a for the adjacency, c(b, m) for the sum of
  column m of batch b of a, d = c^(−1/2), s = x · w for the projected features and β for the bias. The reference
  forms the normalised adjacency d(b, n) · a(b, n, m) · d(b, m) and multiplies it by s; the kernel multiplies a by
  s scaled by d and scales the product by d(b, n) afterwards, computing d as a reciprocal square root. On the
  extended reals the two agree once every entry is a real number and every column sum is positive — the domain
  on which the reference's power −1/2 is defined — by distributivity in ℝ; the precondition states both.

  The kernel program is three kernel regions in a row. Each program's frame is the run of its regions with the
  result dropped; the claim about values reads the third region's output array off the same run, identifies it with
  the kernel's function of the arguments, reads the reference's run as the reference's function, and joins the two
  by the algebraic law under the facts the precondition gives.
-/
import proofs.«171595_j82643760710010_1_alg».proof.Defs
import proofs.«171595_j82643760710010_1_alg».proof.Proof.Gen.Kernel
import proofs.«171595_j82643760710010_1_alg».proof.Proof.Gen.KernelIdeal
import proofs.«171595_j82643760710010_1_alg».proof.Proof.Gen.ReferenceIdeal
import proofs.«171595_j82643760710010_1_alg».proof.Proof.Gen.Pre_finite_inputs
import proofs.«171595_j82643760710010_1_alg».proof.Proof.Gen.ReferenceIdeal.Read
import proofs.«171595_j82643760710010_1_alg».proof.Proof.K.Run
import proofs.«171595_j82643760710010_1_alg».proof.Proof.KI.Run
import proofs.«171595_j82643760710010_1_alg».proof.Proof.KI.Value
import proofs.«171595_j82643760710010_1_alg».proof.Proof.Algebra
import proofs.«171595_j82643760710010_1_alg».proof.Proof.PreFacts
import proofs.«171595_j82643760710010_1_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel program runs and leaves its arguments unchanged: its regions' run with the result dropped. -/
theorem frame_k : Cert.frame_Kernel := fun m ρ _ =>
  (θ_run (Cert.Kernel.defs (F := Bits)) _ _).mono (fun _ h c => (h c).2) (Cert.Kernel.Run.run (F := Bits) m ρ)

/-- The same for the idealized kernel program. -/
theorem frame_ki : Cert.frame_KernelIdeal := fun m ρ _ =>
  (θ_run (Cert.KernelIdeal.defs (F := Ideal)) _ _).mono (fun _ h c => (h c).2) (Cert.KernelIdeal.Run.run (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result, element by element. -/
theorem algebraic : Cert.algebraic_KernelIdeal_ReferenceIdeal := by
  intro m ρ m' ρ' hpre hagree
  refine ⟨fun c => (Cert.KernelIdeal.R2.dat2 (Cert.KernelIdeal.Run.V2 m ρ) c).arrAt 4 Cert.KernelIdeal.cfg2.N,
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, ha, hw, hpos⟩ := Cert.PreFacts.facts _ _ _ _ (hpre c)
  rw [(hagree c).1, (hagree c).2.1, (hagree c).2.2.1, (hagree c).2.2.2, Cert.ReferenceIdeal.Read.val_main_v13_eq]
  funext j
  obtain ⟨b, n, o, rfl⟩ : ∃ (b : Fin 8) (n : Fin 2048) (o : Fin 256), j = ix3 b n o := ⟨j 0, j 1, j 2, eq_ix3 j⟩
  rw [Cert.ReferenceIdeal.RefValue.val_apply]
  exact ((Cert.KernelIdeal.Val.result m ρ c b n o).trans (Cert.Spec.kernelOut_eq_refOut _ _ _ _ hx ha hw hpos b n o)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
